-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S1024 : Shape := ⟨1, ![1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  reducesTo_S1024x1024_S1024_d1 : S1024x1024.ReducesTo [1] S1024

variable [Facts]

def fn_part3 {F : FTy → Type} [FloatOps F] (main_v48 : IVec S_ 1) (main_v50 : FVec F S1024 .f32) : IVec S_ 1 :=
  let main_cst_19 : FVec F S_ .f32 := constant S_ .f32 0x00000000#32
  let main_v51 : FVec F S1024 .f32 := broadcastInDim S1024 ![] bcast_S_S1024 main_cst_19
  let main_v52 : IVec S1024 1 := cmpf .ogt main_v50 main_v51
  let main_c_20 : IVec S_ 1 := constantI S_ 1 1#1
  let main_v53 : IVec S_ 1 := (fun x v => Host.reduce IntOp.andi x v reducesTo_S1024_S_d0 h_S_) main_v52 main_c_20
  let main_v54 : IVec S_ 1 := andi main_v48 main_v53
  main_v54

def fn_part2 {F : FTy → Type} [FloatOps F] (main_arg4 : FVec F S1024x1024 .f32) (main_arg7 : FVec F S1024x1024 .f32) (main_arg8 : FVec F S1024 .f32) (main_arg9 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := mulf main_arg4 main_arg4
  let main_cst_18 : FVec F S_ .f32 := constant S_ .f32 0x00000000#32
  let main_v50 : FVec F S1024 .f32 := (fun x v => Host.reduceAdd x v reducesTo_S1024x1024_S1024_d1 h_S_) main_v49 main_cst_18
  fn_part3 (F := F) main_v48 main_v50

def fn_part1 {F : FTy → Type} [FloatOps F] (main_arg4 : FVec F S1024x1024 .f32) (main_arg5 : FVec F S1024 .f32) (main_arg6 : FVec F S1024 .f32) (main_arg7 : FVec F S1024x1024 .f32) (main_arg8 : FVec F S1024 .f32) (main_arg9 : FVec F S1024 .f32) (main_v13 : IVec S_ 1) (main_v16 : IVec S16x1024x1024 1) : IVec S_ 1 :=
  let main_c_5 : IVec S_ 1 := constantI S_ 1 1#1
  let main_v17 : IVec S_ 1 := (fun x v => Host.reduce IntOp.andi x v reducesTo_S16x1024x1024_S_d0_1_2 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg4 main_arg7 main_arg8 main_arg9 main_v33

def fn {F : FTy → Type} [FloatOps F] (main_arg0 : FVec F S16x1024x1024 .f32) (main_arg1 : FVec F S16x1024x1024 .f32) (main_arg2 : FVec F S16x1024x1024 .f32) (main_arg3 : FVec F S16x1024x1024 .f32) (main_arg4 : FVec F S1024x1024 .f32) (main_arg5 : FVec F S1024 .f32) (main_arg6 : FVec F S1024 .f32) (main_arg7 : FVec F S1024x1024 .f32) (main_arg8 : FVec F S1024 .f32) (main_arg9 : FVec F S1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024x1024 .f32 := Host.absf main_arg2
  let main_cst_2 : FVec F S_ .f32 := constant S_ .f32 0x7F800000#32
  let main_v10 : FVec F S16x1024x1024 .f32 := broadcastInDim S16x1024x1024 ![] bcast_S_S16x1024x1024 main_cst_2
  let main_v11 : IVec S16x1024x1024 1 := cmpf .olt main_v9 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v8 main_v12
  let main_v14 : FVec F S16x1024x1024 .f32 := Host.absf main_arg3
  let main_cst_4 : FVec F S_ .f32 := constant S_ .f32 0x7F800000#32
  let main_v15 : FVec F S16x1024x1024 .f32 := broadcastInDim S16x1024x1024 ![] bcast_S_S16x1024x1024 main_cst_4
  let main_v16 : IVec S16x1024x1024 1 := cmpf .olt main_v14 main_v15
  fn_part1 (F := F) main_arg4 main_arg5 main_arg6 main_arg7 main_arg8 main_arg9 main_v13 main_v16
-- ==== Kernel.lean ====
abbrev S16x1024x1024 : Shape := ⟨3, ![16, 1024, 1024]⟩
abbrev S1024x1024 : Shape := ⟨2, ![1024, 1024]⟩
abbrev S1024 : Shape := ⟨1, ![1024]⟩
abbrev S1024x1 : Shape := ⟨2, ![1024, 1]⟩
abbrev S_ : Shape := ⟨0, ![]⟩
abbrev S1x1024 : Shape := ⟨2, ![1, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 40
  | .vmem => 16
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x1, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1, .f32⟩
  | .hbm, ⟨18, _⟩ => ⟨S1024x1024, .f32⟩
  | .hbm, ⟨19, _⟩ => ⟨S1024x1024, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1024x1, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .bf16⟩
  | .hbm, ⟨32, _⟩ => ⟨S1024x1024, .f32⟩
  | .hbm, ⟨33, _⟩ => ⟨S1024x1024, .bf16⟩
  | .hbm, ⟨34, _⟩ => ⟨S1x1024, .f32⟩
  | .hbm, ⟨35, _⟩ => ⟨S1x1024, .f32⟩
  | .hbm, ⟨36, _⟩ => ⟨S16x1024x1024, .bf16⟩
  | .hbm, ⟨37, _⟩ => ⟨S16x1024x1024, .bf16⟩
  | .hbm, ⟨38, _⟩ => ⟨S16x1024x1024, .f32⟩
  | .hbm, ⟨39, _⟩ => ⟨S16x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  reducesTo_S1024x1024_S1024_d1 : S1024x1024.ReducesTo [1] S1024
  h_S_ : 0 < S_.numel
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .f32 = 32 ∨ (Rect.block (s := S16x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x1024x1024.size a
  hwx0_1 : ∀ i : grid0.Coords, EltTy.bits .f32 = 32 ∨ (Rect.block (s := S16x1024x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x1024x1024.size a
  hwx0_2 : ∀ i : grid0.Coords, EltTy.bits .bf16 = 32 ∨ (Rect.block (s := S16x1024x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x1024.size a
  hwx0_3 : ∀ i : grid0.Coords, EltTy.bits .bf16 = 32 ∨ (Rect.block (s := S16x1024x1024) S1x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S16x1024x1024.size a
  hwx0_8 : ∀ i : grid0.Coords, EltTy.bits .f32 = 32 ∨ (Rect.block (s := S16x1024x1024) S1x512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S16x1024x1024.size a
  hwx0_9 : ∀ i : grid0.Coords, EltTy.bits .f32 = 32 ∨ (Rect.block (s := S16x1024x1024) S1x512x1024.size (cc0_transform_9 i) (hinb0_9 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20_0) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v20_1) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S1024 : Shape := ⟨1, ![1024]⟩
abbrev S1024x1 : Shape := ⟨2, ![1024, 1]⟩
abbrev S_ : Shape := ⟨0, ![]⟩
abbrev S1x1x1024 : Shape := ⟨3, ![1, 1, 1024]⟩
abbrev S16x1024 : Shape := ⟨2, ![16, 1024]⟩
abbrev S16x1024x1 : Shape := ⟨3, ![16, 1024, 1]⟩

abbrev nBuf : Space → Nat
  | .hbm => 65
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x1, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1, .f32⟩
  | .hbm, ⟨18, _⟩ => ⟨S1024x1024, .f32⟩
  | .hbm, ⟨19, _⟩ => ⟨S1024x1024, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1024x1, .f32⟩
  | .hbm, ⟨28, _⟩ => ⟨S1024x1024, .f32⟩
  | .hbm, ⟨29, _⟩ => ⟨S1024x1024, .f32⟩
  | .hbm, ⟨30, _⟩ => ⟨S16x1024x1024, .f32⟩
  | .hbm, ⟨31, _⟩ => ⟨S1x1x1024, .f32⟩
  | .hbm, ⟨32, _⟩ => ⟨S16x1024x1024, .f32⟩
  | .hbm, ⟨33, _⟩ => ⟨S16x1024x1024, .f32⟩
  | .hbm, ⟨34, _⟩ => ⟨S16x1024x1024, .f32⟩
  | .hbm, ⟨35, _⟩ => ⟨S_, .f32⟩
  | .hbm, ⟨36, _⟩ => ⟨S16x1024x1024, .f32⟩
  | .hbm, ⟨37, _⟩ => ⟨S16x1024x1024, .f32⟩
  | .hbm, ⟨38, _⟩ => ⟨S16x1024x1024, .f32⟩
  | .hbm, ⟨39, _⟩ => ⟨S_, .f32⟩
  | .hbm, ⟨40, _⟩ => ⟨S16x1024, .f32⟩
  | .hbm, ⟨41, _⟩ => ⟨S_, .f32⟩
  | .hbm, ⟨42, _⟩ => ⟨S16x1024, .f32⟩
  | .hbm, ⟨43, _⟩ => ⟨S16x1024, .f32⟩
  | .hbm, ⟨44, _⟩ => ⟨S16x1024x1, .f32⟩
  | .hbm, ⟨45, _⟩ => ⟨S16x1024x1024, .f32⟩
  | .hbm, ⟨46, _⟩ => ⟨S16x1024x1024, .f32⟩
  | .hbm, ⟨47, _⟩ => ⟨S16x1024x1024, .f32⟩
  | .hbm, ⟨48, _⟩ => ⟨S_, .f32⟩
  | .hbm, ⟨49, _⟩ => ⟨S16x1024, .f32⟩
  | .hbm, ⟨50, _⟩ => ⟨S16x1024x1, .f32⟩
  | .hbm, ⟨51, _⟩ => ⟨S16x1024x1024, .f32⟩
  | .hbm, ⟨52, _⟩ => ⟨S16x1024x1024, .f32⟩
  | .hbm, ⟨53, _⟩ => ⟨S16x1024x1024, .f32⟩
  | .hbm, ⟨54, _⟩ => ⟨S_, .f32⟩
  | .hbm, ⟨55, _⟩ => ⟨S16x1024x1024, .f32⟩
  | .hbm, ⟨56, _⟩ => ⟨S16x1024x1024, .f32⟩
  | .hbm, ⟨57, _⟩ => ⟨S16x1024x1024, .f32⟩
  | .hbm, ⟨58, _⟩ => ⟨S1x1x1024, .f32⟩
  | .hbm, ⟨59, _⟩ => ⟨S16x1024x1024, .f32⟩
  | .hbm, ⟨60, _⟩ => ⟨S16x1024x1024, .f32⟩
  | .hbm, ⟨61, _⟩ => ⟨S16x1024x1024, .f32⟩
  | .hbm, ⟨62, _⟩ => ⟨S_, .f32⟩
  | .hbm, ⟨63, _⟩ => ⟨S16x1024x1024, .f32⟩
  | .hbm, ⟨64, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  reducesTo_S1024x1024_S1024_d1 : S1024x1024.ReducesTo [1] S1024
  h_S_ : 0 < S_.numel
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  bcast_S_S16x1024x1024 : S_.BroadcastsInDim S16x1024x1024 (![] : Fin 0 → Fin S16x1024x1024.rank)
  reducesTo_S16x1024x1024_S16x1024_d2 : S16x1024x1024.ReducesTo [2] S16x1024
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  dot_S16x1024x1024_S1024x1024_S16x1024x1024_2_1_01_0_n_n_wf : DotDims.WF S16x1024x1024 S1024x1024 S16x1024x1024 [2] [1] [0, 1] [0] [] []
  dot_S16x1024x1024_S16x1024x1024_S16x1024x1024_2_1_1_2_0_0_wf : DotDims.WF S16x1024x1024 S16x1024x1024 S16x1024x1024 [2] [1] [1] [2] [0] [0]

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibSoftmaxRows.lean ====
/-
  The softmax of each row of an [a, b] array, as a vector program spells it, read at an entry.

  The program takes each row's maximum from minus infinity and keeps it as an [a, 1] column, broadcasts the column
  over the b columns, subtracts, exponentiates, sums each row of exponentials and keeps the sums as an [a, 1] column,
  broadcasts that column, and divides. On the extended reals entry (p, q) of the result is
  exp(s_q - m) / (sum over k of exp(s_k - m)), where s is row p of the array and m the maximum of that row from minus
  infinity: `softmaxRows_apply`, for any extents. `maxCol_apply` reads the kept column of row maxima alone, and
  `max_negInf_rowMax` says that one more maximum with minus infinity leaves a row's maximum as it is.
-/
import Idealize.ShloMosaic.Lib.Pipeline.Value
import Idealize.ShloMosaic.Lib.ValueIdx
import Idealize.ShloMosaic.PureOps.Ideal.Laws
import proofs.«146043_j47321949667345_2_alg».proof.Proof.LibKeepdims

noncomputable section

open scoped BigOperators

namespace Cert.Lib.SoftmaxRows

open Idealize.ShloMosaic Idealize.ShloMosaic.ValueIdx Cert.Lib.Keepdims

/-- Minus infinity, as the f32 word that spells it. -/
abbrev negInf : EReal := Ideal.ofBits .f32 0xFF800000#32

/-- The maximum of a row, taken from minus infinity. -/
def rowMax {n : Nat} (s : Fin n → EReal) : EReal := (Finset.univ : Finset (Fin n)).fold max negInf s

/-- Taking the maximum with minus infinity once more changes nothing: the fold already started there. -/
theorem max_negInf_rowMax {n : Nat} (s : Fin n → EReal) : max negInf (rowMax s) = rowMax s :=
  max_eq_right ((Finset.le_fold_max negInf).mpr (Or.inl le_rfl))

/-- The softmax of a row at position q: the exponential of the entry less the row's maximum, over the sum of all
    such exponentials of the row. -/
def softmax {n : Nat} (s : Fin n → EReal) (q : Fin n) : EReal :=
  Ideal.div (Ideal.exp (s q - rowMax s)) (∑ k : Fin n, Ideal.exp (s k - rowMax s))

variable {a b : Nat}

/-- The maxima of an [a, b] array's rows, from minus infinity, kept as a column: row p of the column is the maximum
    of row p. -/
theorem maxCol_apply (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (p : Fin a) :
    shapeCast ⟨2, ![a, 1]⟩ (multiReduction .maximumf [1] ⟨1, ![a]⟩ v 0xFF800000#32 hr hφ hacc) hc (ix2 p (0 : Fin 1))
      = rowMax (fun k : Fin b => v (ix2 p k)) := by
  refine (castCol_apply _ hc p).trans ?_
  refine (Ideal.multiReduction_maximumf_single v _ hr hφ hacc (ix1 p)).trans ?_
  exact Finset.fold_congr fun k _ =>
    congrArg v (funext fun d => Fin.ext (by match d with | ⟨0, _⟩ => rfl | ⟨1, _⟩ => rfl))

/-- The row softmax as the vector program spells it, read at entry (p, q). -/
theorem softmaxRows_apply (s : FVec Ideal ⟨2, ![a, b]⟩ .f32)
    (hr : (⟨2, ![a, b]⟩ : Shape).Reduces [1] ⟨1, ![a]⟩) (hφ : FKind.Formats .f32)
    (haccM : (0xFF800000#32 : BitVec FTy.f32.bits) = FKind.maximumf.neutral .f32 hφ)
    (haccA : (0x00000000#32 : BitVec FTy.f32.bits) = FKind.add.neutral .f32 hφ)
    (hc : (⟨1, ![a]⟩ : Shape).ShapeCasts ⟨2, ![a, 1]⟩)
    (hb : (⟨2, ![a, 1]⟩ : Shape).Broadcasts ⟨2, ![a, b]⟩) (p : Fin a) (q : Fin b) :
    divf
        (exp (subf s (broadcastTo ⟨2, ![a, b]⟩
          (shapeCast ⟨2, ![a, 1]⟩ (multiReduction .maximumf [1] ⟨1, ![a]⟩ s 0xFF800000#32 hr hφ haccM) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 hr hφ haccM) hc) hb)))
              0x00000000#32 hr hφ haccA) hc) hb)
        (ix2 p q)
      = softmax (fun k : Fin b => s (ix2 p k)) q := by
  have he : ∀ k : Fin b,
      exp (subf s (broadcastTo ⟨2, ![a, b]⟩
          (shapeCast ⟨2, ![a, 1]⟩ (multiReduction .maximumf [1] ⟨1, ![a]⟩ s 0xFF800000#32 hr hφ haccM) hc) hb)) (ix2 p k)
        = Ideal.exp (s (ix2 p k) - rowMax (fun k : Fin b => s (ix2 p k))) := fun k =>
    congrArg (fun m => Ideal.exp (s (ix2 p k) - m))
      ((bcastCol_apply _ hb p k).trans (maxCol_apply s hr hφ haccM hc p))
  refine (congrArg₂ Ideal.div (he q) ((bcastCol_apply _ hb p q).trans (sumCol_apply _ _ hr hφ haccA hc p))).trans ?_
  unfold softmax
  exact congrArg (Ideal.div _) (Finset.sum_congr rfl fun k _ => he k)

end Cert.Lib.SoftmaxRows

end
-- ==== Proof.AttnRows.lean ====
/-
  One query row of scaled attention, as a function of the row and of the matrices it meets, on the extended reals.

  A row x of C channels is projected to E features by a matrix W (channel by feature), a bias b and the row t of target
  embeddings are added, and the sum is scaled by the square root of one half: the hidden row. Its scores against S
  source positions are its products with the key matrix (feature by position). The scores less their maximum (taken
  from minus infinity) are exponentiated; dividing each exponential by the row's sum of exponentials gives the
  attention weights. The weights times the value matrix (position by feature), scaled by thirty-two, are the context
  row; the context through the output projection (feature by channel), plus its bias and the row x itself, scaled by
  the square root of one half, is the output row.

  The attention weights are written in two ways: each exponential times the reciprocal of the sum, and each
  exponential divided by the sum. They are the same number whenever the sum is not zero.
-/
import Idealize.ShloMosaic.PureOps.Ideal
import Idealize.ShloMosaic.PureOps.Ideal.Laws
import proofs.«146043_j47321949667345_2_alg».proof.Proof.LibSoftmaxRows

noncomputable section

open scoped BigOperators

namespace Cert.AttnRows

open Idealize.ShloMosaic Cert.Lib.SoftmaxRows

/-- The square root of one half, as the f32 word both programs carry. -/
abbrev sqrtHalf : EReal := Ideal.ofBits .f32 0x3F3504F3#32
/-- Thirty-two, the square root of the source length, as the f32 word both programs carry. -/
abbrev thirtyTwo : EReal := Ideal.ofBits .f32 0x42000000#32
/-- One, as the f32 word the reciprocal is taken of. -/
abbrev oneWord : EReal := Ideal.ofBits .f32 0x3F800000#32

variable {C E S : Nat}

/-- The hidden row: (x W + b + t) scaled by the square root of one half. -/
def hidden (x : Fin C → EReal) (t b : Fin E → EReal) (W : Fin C → Fin E → EReal) (e : Fin E) : EReal :=
  ((∑ c : Fin C, x c * W c e) + b e + t e) * sqrtHalf

/-- The scores of a hidden row against the keys. -/
def scores (h : Fin E → EReal) (K : Fin E → Fin S → EReal) (s : Fin S) : EReal :=
  ∑ e : Fin E, h e * K e s

/-- The exponential of a score less the row's maximum. -/
def expo (sc : Fin S → EReal) (s : Fin S) : EReal := Ideal.exp (sc s - rowMax sc)

/-- The attention weights as exponential times the reciprocal of the sum of exponentials. -/
def weightsRecip (sc : Fin S → EReal) (s : Fin S) : EReal :=
  expo sc s * Ideal.div oneWord (∑ k : Fin S, expo sc k)

/-- The attention weights as exponential over the sum of exponentials. -/
def weightsQuot (sc : Fin S → EReal) (s : Fin S) : EReal :=
  Ideal.div (expo sc s) (∑ k : Fin S, expo sc k)

/-- The context row: the weights times the values, scaled by thirty-two. -/
def context (a : Fin S → EReal) (V : Fin S → Fin E → EReal) (e : Fin E) : EReal :=
  (∑ s : Fin S, a s * V s e) * thirtyTwo

/-- The output row: (context W + b + x) scaled by the square root of one half. -/
def output (cx : Fin E → EReal) (W : Fin E → Fin C → EReal) (b x : Fin C → EReal) (c : Fin C) : EReal :=
  ((∑ e : Fin E, cx e * W e c) + b c + x c) * sqrtHalf

/-- A weight-normalised matrix entry: the gain of row e times the entry, over the Euclidean norm of row e. -/
def weightNorm (v : Fin E → Fin C → EReal) (g : Fin E → EReal) (e : Fin E) (c : Fin C) : EReal :=
  Ideal.div (g e * v e c) (Ideal.sqrt (∑ k : Fin C, v e k * v e k))

end Cert.AttnRows

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.KernelRows.lean ====
/-
  What the kernel's body computes from its blocks, read entry by entry.

  At one grid point the body holds a block of 512 query rows x (and the matching rows t of target embeddings), the
  batch's key and value matrices, the two projection matrices and the two biases. Row r of the stored attention block is
  the attention weights of query row r, in the reciprocal form; row r of the stored output block is that row's output.
  Each is one row of the specification, applied to row r of the blocks: four matrix products into zero accumulators read
  as finite sums, the row maximum and the row sum kept as columns and broadcast back, and re-layings that only add or
  drop a leading axis of extent one.
-/
import proofs.«146043_j47321949667345_2_alg».proof.Proof.Gen.KernelIdeal.Skeleton
import proofs.«146043_j47321949667345_2_alg».proof.Proof.AttnRows
import proofs.«146043_j47321949667345_2_alg».proof.Proof.LibMatmulPlain
import proofs.«146043_j47321949667345_2_alg».proof.Proof.LibKeepdims
import proofs.«146043_j47321949667345_2_alg».proof.Proof.LibSoftmaxRows
import Idealize.ShloMosaic.Lib.ValueIdx
import Idealize.ShloMosaic.Lib.ValueLayout
import Idealize.ShloMosaic.Lib.Pipeline.Value

noncomputable section

open scoped BigOperators

namespace Cert.KernelRows

open Idealize.ShloMosaic Idealize.ShloMosaic.ValueIdx Cert.KernelIdeal Cert.KernelIdeal.Gen
open Cert.AttnRows Cert.Lib.Keepdims Cert.Lib.SoftmaxRows

/-- A 512-row block times a 1024 by 1024 matrix, into a zero accumulator: entry (p, n) is the sum over k. -/
theorem prod_apply {φ₁ φ₂ : FTy} (l : FVec Ideal S512x1024 φ₁) (r : FVec Ideal S1024x1024 φ₂) (p : Fin 512) (n : Fin 1024) :
    matmul dot_S512x1024_S1024x1024_S512x1024_1_0_0_1_n_n none l r (constant S512x1024 .f32 0x00000000#32) (ix2 p n)
      = ∑ k : Fin 1024, l (ix2 p k) * r (ix2 k n) :=
  Cert.LibMatmulPlain.matmul_zero_apply Cert.KernelIdeal.Facts₀.dot_S512x1024_S1024x1024_S512x1024_1_0_0_1_n_n_wf none l r p n

/-! ## The hidden rows and the scores -/

/-- The block of hidden rows: (x W + b + t) scaled, from the loaded blocks. -/
def hidBlk (v0 v2 : FVec Ideal S1x512x1024 .f32) (v8 : FVec Ideal S1024x1024 .bf16) (v12 : FVec Ideal S1x1024 .f32) :
    FVec Ideal S512x1024 .f32 :=
  mulf (addf (addf
      (matmul dot_S512x1024_S1024x1024_S512x1024_1_0_0_1_n_n none
        (truncf .bf16 (shapeCast S512x1024 v0 shapeCasts_S1x512x1024_S512x1024) bitsLt_bf16_f32)
        (shapeCast S1024x1024 v8 shapeCasts_S1024x1024_S1024x1024)
        (constant S512x1024 .f32 0x00000000#32))
      (broadcastTo S512x1024 (shapeCast S1x1024 v12 shapeCasts_S1x1024_S1x1024) broadcasts_S1x1024_S512x1024))
    (shapeCast S512x1024 v2 shapeCasts_S1x512x1024_S512x1024))
    (broadcast S512x1024 (Scalar.ofBits .f32 0x3F3504F3#32))

/-- Row r of the hidden block is the hidden row of query row r. -/
theorem hidBlk_apply (v0 v2 : FVec Ideal S1x512x1024 .f32) (v8 : FVec Ideal S1024x1024 .bf16) (v12 : FVec Ideal S1x1024 .f32)
    (r : Fin 512) (e : Fin 1024) :
    hidBlk v0 v2 v8 v12 (ix2 r e)
      = AttnRows.hidden (fun c : Fin 1024 => v0 (ix3 (0 : Fin 1) r c)) (fun e : Fin 1024 => v2 (ix3 (0 : Fin 1) r e))
          (fun e : Fin 1024 => v12 (ix2 (0 : Fin 1) e)) (fun (c e : Fin 1024) => v8 (ix2 c e)) e := by
  unfold hidBlk AttnRows.hidden
  simp only [mulf_apply, addf_apply, broadcast_apply]
  rw [prod_apply, broadcastTo_1b_ab_apply, shapeCast_1ab_ab_apply, shapeCast_self, shapeCast_self]
  simp only [truncf_apply, shapeCast_1ab_ab_apply]
  rfl

/-- The block of scores: the hidden rows against the batch's keys. -/
def scoreBlk (v0 v2 : FVec Ideal S1x512x1024 .f32) (v4 : FVec Ideal S1x1024x1024 .bf16) (v8 : FVec Ideal S1024x1024 .bf16)
    (v12 : FVec Ideal S1x1024 .f32) : FVec Ideal S512x1024 .f32 :=
  matmul dot_S512x1024_S1024x1024_S512x1024_1_0_0_1_n_n none
    (truncf .bf16 (hidBlk v0 v2 v8 v12) bitsLt_bf16_f32)
    (shapeCast S1024x1024 v4 shapeCasts_S1x1024x1024_S1024x1024)
    (constant S512x1024 .f32 0x00000000#32)

/-- The scores of query row r, as the specification writes them. -/
abbrev rowScores (v0 v2 : FVec Ideal S1x512x1024 .f32) (v4 : FVec Ideal S1x1024x1024 .bf16) (v8 : FVec Ideal S1024x1024 .bf16)
    (v12 : FVec Ideal S1x1024 .f32) (r : Fin 512) : Fin 1024 → EReal :=
  scores (AttnRows.hidden (fun c : Fin 1024 => v0 (ix3 (0 : Fin 1) r c)) (fun e : Fin 1024 => v2 (ix3 (0 : Fin 1) r e))
      (fun e : Fin 1024 => v12 (ix2 (0 : Fin 1) e)) (fun (c e : Fin 1024) => v8 (ix2 c e)))
    (fun (e k : Fin 1024) => v4 (ix3 (0 : Fin 1) e k))

theorem scoreBlk_apply (v0 v2 : FVec Ideal S1x512x1024 .f32) (v4 : FVec Ideal S1x1024x1024 .bf16) (v8 : FVec Ideal S1024x1024 .bf16)
    (v12 : FVec Ideal S1x1024 .f32) (r : Fin 512) (s : Fin 1024) :
    scoreBlk v0 v2 v4 v8 v12 (ix2 r s) = rowScores v0 v2 v4 v8 v12 r s := by
  unfold scoreBlk
  rw [prod_apply]
  simp only [truncf_apply, hidBlk_apply, shapeCast_1ab_ab_apply]
  rfl

/-! ## The exponentials, their row sums, and the weights -/

/-- Scores less their row maximum (kept as a column, broadcast back), exponentiated: entry (r, s). -/
theorem expRows_apply (sc : FVec Ideal S512x1024 .f32) (r : Fin 512) (s : Fin 1024) :
    exp (subf sc (broadcastTo S512x1024
        (shapeCast S512x1 (multiReduction .maximumf [1] S512 sc 0xFF800000#32 reduces_S512x1024_S512 (.inl rfl) rfl)
          shapeCasts_S512_S512x1) broadcasts_S512x1_S512x1024)) (ix2 r s)
      = expo (fun k : Fin 1024 => sc (ix2 r k)) s :=
  congrArg (fun m => Ideal.exp (sc (ix2 r s) - m))
    ((bcastCol_apply _ broadcasts_S512x1_S512x1024 r s).trans
      (maxCol_apply sc reduces_S512x1024_S512 (.inl rfl) rfl shapeCasts_S512_S512x1 r))

set_option maxRecDepth 65536 in
/-- The body's block of exponentials is that expression of the block of scores. -/
theorem pay8_eq (v0 v2 : FVec Ideal S1x512x1024 .f32) (v4 : FVec Ideal S1x1024x1024 .bf16) (v8 : FVec Ideal S1024x1024 .bf16)
    (v12 : FVec Ideal S1x1024 .f32) :
    k0_pay8 (F := Ideal) v0 v2 v4 v8 v12 = exp (subf (scoreBlk v0 v2 v4 v8 v12) (broadcastTo S512x1024
        (shapeCast S512x1 (multiReduction .maximumf [1] S512 (scoreBlk v0 v2 v4 v8 v12) 0xFF800000#32 reduces_S512x1024_S512 (.inl rfl) rfl)
          shapeCasts_S512_S512x1) broadcasts_S512x1_S512x1024)) := rfl

/-- Entry (r, s) of the block of exponentials. -/
theorem pay8_apply (v0 v2 : FVec Ideal S1x512x1024 .f32) (v4 : FVec Ideal S1x1024x1024 .bf16) (v8 : FVec Ideal S1024x1024 .bf16)
    (v12 : FVec Ideal S1x1024 .f32) (r : Fin 512) (s : Fin 1024) :
    k0_pay8 (F := Ideal) v0 v2 v4 v8 v12 (ix2 r s) = expo (rowScores v0 v2 v4 v8 v12 r) s := by
  rw [pay8_eq, expRows_apply]
  exact congrArg (fun f => expo f s) (funext fun k => scoreBlk_apply v0 v2 v4 v8 v12 r k)

/-- Row r of the kept column of row sums: the sum of the row's exponentials. -/
theorem pay9_apply (v0 v2 : FVec Ideal S1x512x1024 .f32) (v4 : FVec Ideal S1x1024x1024 .bf16) (v8 : FVec Ideal S1024x1024 .bf16)
    (v12 : FVec Ideal S1x1024 .f32) (r : Fin 512) :
    k0_pay9 (F := Ideal) v0 v2 v4 v8 v12 (ix2 r (0 : Fin 1)) = ∑ k : Fin 1024, expo (rowScores v0 v2 v4 v8 v12 r) k := by
  unfold k0_pay9
  refine (sumCol_apply (k0_pay8 (F := Ideal) v0 v2 v4 v8 v12) 0x00000000#32 reduces_S512x1024_S512 (.inl rfl) rfl shapeCasts_S512_S512x1 r).trans ?_
  exact Finset.sum_congr rfl fun k _ => pay8_apply v0 v2 v4 v8 v12 r k

/-- Exponentials times the reciprocal of their row sums: entry (r, s). -/
theorem pay1_apply (v29 : FVec Ideal S512x1024 .f32) (v31 : FVec Ideal S512x1 .f32) (one : Ideal .f32) (r : Fin 512) (s : Fin 1024) :
    k0_pay1 (F := Ideal) v29 v31 one (ix2 r s) = v29 (ix2 r s) * Ideal.div one (v31 (ix2 r (0 : Fin 1))) := by
  unfold k0_pay1
  simp only [mulf_apply]
  rw [bcastCol_apply]
  rfl

/-- The stored attention block: entry (r, s) is the reciprocal-form weight of query row r at position s. -/
theorem attn_apply (v0 v2 : FVec Ideal S1x512x1024 .f32) (v4 : FVec Ideal S1x1024x1024 .bf16) (v8 : FVec Ideal S1024x1024 .bf16)
    (v12 : FVec Ideal S1x1024 .f32) (u : Fin 1) (r : Fin 512) (s : Fin 1024) :
    k0_pay2 (F := Ideal) (k0_pay8 (F := Ideal) v0 v2 v4 v8 v12) (k0_pay9 (F := Ideal) v0 v2 v4 v8 v12) (Scalar.ofBits .f32 0x3F800000#32) (ix3 u r s)
      = weightsRecip (rowScores v0 v2 v4 v8 v12 r) s := by
  unfold k0_pay2
  rw [shapeCast_ab_1ab_apply, pay1_apply, pay8_apply, pay9_apply]
  rfl

/-! ## The context and the output -/

/-- The output block from the block of weights a, the rows x, the values, the output projection and its bias. -/
def outBlk (a v1 : FVec Ideal S512x1024 .f32) (v7 v11 : FVec Ideal S1024x1024 .bf16) (v15 : FVec Ideal S1x1024 .f32) :
    FVec Ideal S1x512x1024 .f32 :=
  shapeCast S1x512x1024
    (mulf (addf (addf
        (matmul dot_S512x1024_S1024x1024_S512x1024_1_0_0_1_n_n none
          (truncf .bf16
            (mulf (matmul dot_S512x1024_S1024x1024_S512x1024_1_0_0_1_n_n none (truncf .bf16 a bitsLt_bf16_f32) v7
                (constant S512x1024 .f32 0x00000000#32))
              (broadcast S512x1024 (Scalar.ofBits .f32 0x42000000#32))) bitsLt_bf16_f32)
          v11 (constant S512x1024 .f32 0x00000000#32))
        (broadcastTo S512x1024 v15 broadcasts_S1x1024_S512x1024))
      v1)
      (broadcast S512x1024 (Scalar.ofBits .f32 0x3F3504F3#32)))
    shapeCasts_S512x1024_S1x512x1024

set_option maxRecDepth 65536 in
theorem pay3_eq (v1 : FVec Ideal S512x1024 .f32) (v7 v11 : FVec Ideal S1024x1024 .bf16) (v15 : FVec Ideal S1x1024 .f32)
    (v29 : FVec Ideal S512x1024 .f32) (v31 : FVec Ideal S512x1 .f32) (one : Ideal .f32) :
    k0_pay3 (F := Ideal) v1 v7 v11 v15 v29 v31 one = outBlk (k0_pay1 (F := Ideal) v29 v31 one) v1 v7 v11 v15 := rfl

/-- Entry (r, c) of the output block: the output row of query row r at channel c. -/
theorem outBlk_apply (a v1 : FVec Ideal S512x1024 .f32) (v7 v11 : FVec Ideal S1024x1024 .bf16) (v15 : FVec Ideal S1x1024 .f32)
    (u : Fin 1) (r : Fin 512) (c : Fin 1024) :
    outBlk a v1 v7 v11 v15 (ix3 u r c)
      = output (context (fun s : Fin 1024 => a (ix2 r s)) (fun (s e : Fin 1024) => v7 (ix2 s e)))
          (fun (e c : Fin 1024) => v11 (ix2 e c)) (fun c : Fin 1024 => v15 (ix2 (0 : Fin 1) c))
          (fun c : Fin 1024 => v1 (ix2 r c)) c := by
  unfold outBlk output context
  rw [shapeCast_ab_1ab_apply]
  simp only [mulf_apply, addf_apply, broadcast_apply]
  rw [prod_apply, broadcastTo_1b_ab_apply]
  simp only [truncf_apply, mulf_apply, broadcast_apply, prod_apply]
  rfl

/-- The stored output block, from the loaded blocks. -/
theorem out_apply (v0 v2 : FVec Ideal S1x512x1024 .f32) (v4 v6 : FVec Ideal S1x1024x1024 .bf16) (v8 v10 : FVec Ideal S1024x1024 .bf16)
    (v12 v14 : FVec Ideal S1x1024 .f32) (u : Fin 1) (r : Fin 512) (c : Fin 1024) :
    k0_pay3 (F := Ideal) (k0_pay4 (F := Ideal) v0) (k0_pay5 (F := Ideal) v6) (k0_pay6 (F := Ideal) v10) (k0_pay7 (F := Ideal) v14) (k0_pay8 (F := Ideal) v0 v2 v4 v8 v12) (k0_pay9 (F := Ideal) v0 v2 v4 v8 v12)
        (Scalar.ofBits .f32 0x3F800000#32) (ix3 u r c)
      = output (context (weightsRecip (rowScores v0 v2 v4 v8 v12 r)) (fun (s e : Fin 1024) => v6 (ix3 (0 : Fin 1) s e)))
          (fun (e c : Fin 1024) => v10 (ix2 e c)) (fun c : Fin 1024 => v14 (ix2 (0 : Fin 1) c))
          (fun c : Fin 1024 => v0 (ix3 (0 : Fin 1) r c)) c := by
  rw [pay3_eq, outBlk_apply]
  unfold k0_pay4 k0_pay5 k0_pay6 k0_pay7
  simp only [shapeCast_1ab_ab_apply, shapeCast_self]
  refine congrArg (fun f => output (context f _) _ _ _ c) (funext fun s => ?_)
  rw [pay1_apply, pay8_apply, pay9_apply]
  rfl

end Cert.KernelRows

end
-- ==== Proof.KernelValue.lean ====
/-
  The two result arrays after the kernel's run, each as one function of the arrays the launch finds.

  The grid has sixteen batches by two halves of the 1024 query rows. Point (n, q) stages rows 512 q … 512 q + 511 of
  batch n of x and of the target embeddings, the whole of batch n of the keys and of the values, and the whole of the two
  projection matrices and the two bias rows; it writes back rows 512 q … 512 q + 511 of batch n of both results. So
  each block a point writes is the corresponding block of one array — entry (n, t, ·) the specification's row for query
  row (n, t) — and the thirty-two blocks cover each result array.
-/
import proofs.«146043_j47321949667345_2_alg».proof.Proof.Gen.KernelIdeal.Value
import proofs.«146043_j47321949667345_2_alg».proof.Proof.KernelRows
import Idealize.ShloMosaic.Lib.Pipeline.Value
import Idealize.ShloMosaic.Lib.ValueIdx

noncomputable section

open scoped BigOperators

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.AttnRows

/-! ## The result arrays as functions of the staged arrays -/

abbrev A3 : Type := S16x1024x1024.Idx → EReal
abbrev A2 : Type := S1024x1024.Idx → EReal
abbrev R1 : Type := S1x1024.Idx → EReal

/-- The scores of query row (n, t), from the staged arrays. -/
def kScores (X TE KEYS : A3) (WI : A2) (BI : R1) (n : Fin 16) (t : Fin 1024) : Fin 1024 → EReal :=
  scores (AttnRows.hidden (fun c : Fin 1024 => X (ix3 n t c)) (fun e : Fin 1024 => TE (ix3 n t e))
      (fun e : Fin 1024 => BI (ix2 (0 : Fin 1) e)) (fun (c e : Fin 1024) => WI (ix2 c e)))
    (fun (e k : Fin 1024) => KEYS (ix3 n e k))

/-- The attention weights of query row (n, t), reciprocal form. -/
def attnAt (X TE KEYS : A3) (WI : A2) (BI : R1) (n : Fin 16) (t s : Fin 1024) : EReal :=
  weightsRecip (kScores X TE KEYS WI BI n t) s

/-- The output of query row (n, t). -/
def outAt (X TE KEYS VALS : A3) (WI WO : A2) (BI BO : R1) (n : Fin 16) (t c : Fin 1024) : EReal :=
  output (context (weightsRecip (kScores X TE KEYS WI BI n t)) (fun (s e : Fin 1024) => VALS (ix3 n s e)))
    (fun (e c : Fin 1024) => WO (ix2 e c)) (fun c : Fin 1024 => BO (ix2 (0 : Fin 1) c)) (fun c : Fin 1024 => X (ix3 n t c)) c

/-- The attention array. -/
def attnArr (X TE KEYS : A3) (WI : A2) (BI : R1) : A3 := fun i =>
  attnAt X TE KEYS WI BI ⟨(i 0).val, (i 0).isLt⟩ ⟨(i 1).val, (i 1).isLt⟩ ⟨(i 2).val, (i 2).isLt⟩

/-- The output array. -/
def outArr (X TE KEYS VALS : A3) (WI WO : A2) (BI BO : R1) : A3 := fun i =>
  outAt X TE KEYS VALS WI WO BI BO ⟨(i 0).val, (i 0).isLt⟩ ⟨(i 1).val, (i 1).isLt⟩ ⟨(i 2).val, (i 2).isLt⟩

theorem attnArr_apply (X TE KEYS : A3) (WI : A2) (BI : R1) (i : S16x1024x1024.Idx) (n : Fin 16) (t s : Fin 1024)
    (h0 : (i 0).val = n.val) (h1 : (i 1).val = t.val) (h2 : (i 2).val = s.val) :
    attnArr X TE KEYS WI BI i = attnAt X TE KEYS WI BI n t s := by
  have e0 : (⟨(i 0).val, (i 0).isLt⟩ : Fin 16) = n := Fin.ext h0
  have e1 : (⟨(i 1).val, (i 1).isLt⟩ : Fin 1024) = t := Fin.ext h1
  have e2 : (⟨(i 2).val, (i 2).isLt⟩ : Fin 1024) = s := Fin.ext h2
  unfold attnArr
  rw [e0, e1, e2]

theorem outArr_apply (X TE KEYS VALS : A3) (WI WO : A2) (BI BO : R1) (i : S16x1024x1024.Idx) (n : Fin 16) (t s : Fin 1024)
    (h0 : (i 0).val = n.val) (h1 : (i 1).val = t.val) (h2 : (i 2).val = s.val) :
    outArr X TE KEYS VALS WI WO BI BO i = outAt X TE KEYS VALS WI WO BI BO n t s := by
  have e0 : (⟨(i 0).val, (i 0).isLt⟩ : Fin 16) = n := Fin.ext h0
  have e1 : (⟨(i 1).val, (i 1).isLt⟩ : Fin 1024) = t := Fin.ext h1
  have e2 : (⟨(i 2).val, (i 2).isLt⟩ : Fin 1024) = s := Fin.ext h2
  unfold outArr
  rw [e0, e1, e2]

/-! ## One query row of a block is one query row of the arrays -/

/-- The scores of row r of a block are the scores of the query row the block's row r is. -/
theorem point_scores (x0 x1 : FVec Ideal S1x512x1024 .f32) (x2 : FVec Ideal S1x1024x1024 .bf16) (x4 : FVec Ideal S1024x1024 .bf16)
    (x6 : FVec Ideal S1x1024 .f32) (X TE KEYS : A3) (WI : A2) (BI : R1) (n : Fin 16) (t : Fin 1024) (r : Fin 512)
    (h0 : ∀ c : Fin 1024, x0 (ix3 (0 : Fin 1) r c) = X (ix3 n t c))
    (h1 : ∀ e : Fin 1024, x1 (ix3 (0 : Fin 1) r e) = TE (ix3 n t e))
    (h2 : ∀ e k : Fin 1024, x2 (ix3 (0 : Fin 1) e k) = KEYS (ix3 n e k))
    (h4 : ∀ c e : Fin 1024, x4 (ix2 c e) = WI (ix2 c e))
    (h6 : ∀ e : Fin 1024, x6 (ix2 (0 : Fin 1) e) = BI (ix2 (0 : Fin 1) e)) :
    KernelRows.rowScores x0 x1 x2 x4 x6 r = kScores X TE KEYS WI BI n t := by
  unfold kScores
  show scores (AttnRows.hidden (fun c : Fin 1024 => x0 (ix3 (0 : Fin 1) r c)) (fun e : Fin 1024 => x1 (ix3 (0 : Fin 1) r e))
      (fun e : Fin 1024 => x6 (ix2 (0 : Fin 1) e)) (fun (c e : Fin 1024) => x4 (ix2 c e)))
    (fun (e k : Fin 1024) => x2 (ix3 (0 : Fin 1) e k)) = _
  rw [funext h0, funext h1, funext h6, show (fun (c e : Fin 1024) => x4 (ix2 c e)) = fun (c e : Fin 1024) => WI (ix2 c e) from funext fun c => funext fun e => h4 c e,
    show (fun (e k : Fin 1024) => x2 (ix3 (0 : Fin 1) e k)) = fun (e k : Fin 1024) => KEYS (ix3 n e k) from funext fun e => funext fun k => h2 e k]

/-- The output of row r of a block is the output of the query row the block's row r is. -/
theorem point_out (x0 x1 : FVec Ideal S1x512x1024 .f32) (x2 x3 : FVec Ideal S1x1024x1024 .bf16) (x4 x5 : FVec Ideal S1024x1024 .bf16)
    (x6 x7 : FVec Ideal S1x1024 .f32) (X TE KEYS VALS : A3) (WI WO : A2) (BI BO : R1) (n : Fin 16) (t : Fin 1024) (r : Fin 512) (cc : Fin 1024)
    (h0 : ∀ c : Fin 1024, x0 (ix3 (0 : Fin 1) r c) = X (ix3 n t c))
    (h1 : ∀ e : Fin 1024, x1 (ix3 (0 : Fin 1) r e) = TE (ix3 n t e))
    (h2 : ∀ e k : Fin 1024, x2 (ix3 (0 : Fin 1) e k) = KEYS (ix3 n e k))
    (h3 : ∀ s e : Fin 1024, x3 (ix3 (0 : Fin 1) s e) = VALS (ix3 n s e))
    (h4 : ∀ c e : Fin 1024, x4 (ix2 c e) = WI (ix2 c e))
    (h5 : ∀ e c : Fin 1024, x5 (ix2 e c) = WO (ix2 e c))
    (h6 : ∀ e : Fin 1024, x6 (ix2 (0 : Fin 1) e) = BI (ix2 (0 : Fin 1) e))
    (h7 : ∀ c : Fin 1024, x7 (ix2 (0 : Fin 1) c) = BO (ix2 (0 : Fin 1) c)) :
    output (context (weightsRecip (KernelRows.rowScores x0 x1 x2 x4 x6 r)) (fun (s e : Fin 1024) => x3 (ix3 (0 : Fin 1) s e)))
        (fun (e c : Fin 1024) => x5 (ix2 e c)) (fun c : Fin 1024 => x7 (ix2 (0 : Fin 1) c))
        (fun c : Fin 1024 => x0 (ix3 (0 : Fin 1) r c)) cc
      = outAt X TE KEYS VALS WI WO BI BO n t cc := by
  unfold outAt
  rw [point_scores x0 x1 x2 x4 x6 X TE KEYS WI BI n t r h0 h1 h2 h4 h6, funext h0, funext h7,
    show (fun (s e : Fin 1024) => x3 (ix3 (0 : Fin 1) s e)) = fun (s e : Fin 1024) => VALS (ix3 n s e) from funext fun s => funext fun e => h3 s e,
    show (fun (e c : Fin 1024) => x5 (ix2 e c)) = fun (e c : Fin 1024) => WO (ix2 e c) from funext fun e => funext fun c => h5 e c]

/-! ## The blocks -/

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the thirty-two grid points: the two row windows and the two result windows move
    together over (batch, half); the keys and values follow the batch alone; the matrices and bias rows stay put. -/
theorem idx_facts : ∀ t : Fin cfg0.N,
    (win0_0.index t 0 = win0_9.index t 0 ∧ win0_0.index t 1 = win0_9.index t 1 ∧ win0_0.index t 2 = 0)
    ∧ (win0_1.index t 0 = win0_9.index t 0 ∧ win0_1.index t 1 = win0_9.index t 1 ∧ win0_1.index t 2 = 0)
    ∧ (win0_2.index t 0 = win0_9.index t 0 ∧ win0_2.index t 1 = 0 ∧ win0_2.index t 2 = 0)
    ∧ (win0_3.index t 0 = win0_9.index t 0 ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = win0_9.index t 0 ∧ win0_8.index t 1 = win0_9.index t 1 ∧ win0_8.index t 2 = 0)
    ∧ (win0_9.index t 0 < 16 ∧ win0_9.index t 1 < 2 ∧ win0_9.index t 2 = 0) :=
  (by decide +kernel : ∀ t : Fin grid0.N, _)

/-- Every (batch, half) is some point's. -/
theorem idx_onto9 : ∀ (q0 : Fin 16) (q1 : Fin 2), ∃ t : Fin cfg0.N, win0_9.index t = ![q0.val, q1.val, 0] :=
  (by decide +kernel : ∀ (q0 : Fin 16) (q1 : Fin 2), ∃ t : Fin grid0.N, win0_9.index t = ![q0.val, q1.val, 0])

theorem idx_onto8 : ∀ (q0 : Fin 16) (q1 : Fin 2), ∃ t : Fin cfg0.N, win0_8.index t = ![q0.val, q1.val, 0] :=
  (by decide +kernel : ∀ (q0 : Fin 16) (q1 : Fin 2), ∃ t : Fin grid0.N, win0_8.index t = ![q0.val, q1.val, 0])

/-- Window 0's block at a point, read at x, is the array it stages read where the block sits. -/
theorem blk0_apply (c : Dev nD) (t : Fin cfg0.N) (x : S1x512x1024.Idx) (k : S16x1024x1024.Idx) (hk0 : (k 0).val = win0_0.index t 0 * 1 + 1 * (x 0).val) (hk1 : (k 1).val = win0_0.index t 1 * 512 + 1 * (x 1).val) (hk2 : (k 2).val = win0_0.index t 2 * 1024 + 1 * (x 2).val) :
    (iblk m c 0 t : FVec Ideal S1x512x1024 .f32) x = (V m c main_arg0 : S16x1024x1024.Idx → EReal) k := by
  unfold iblk
  rw [View.read_apply]
  show (V m c main_arg0 : S16x1024x1024.Idx → EReal) _ = (V m c main_arg0 : S16x1024x1024.Idx → EReal) k
  refine congrArg _ (funext fun a => Fin.ext ?_)
  match a with
  | ⟨0, _⟩ => exact hk0.symm
  | ⟨1, _⟩ => exact hk1.symm
  | ⟨2, _⟩ => exact hk2.symm

/-- Window 1's block at a point, read at x, is the array it stages read where the block sits. -/
theorem blk1_apply (c : Dev nD) (t : Fin cfg0.N) (x : S1x512x1024.Idx) (k : S16x1024x1024.Idx) (hk0 : (k 0).val = win0_1.index t 0 * 1 + 1 * (x 0).val) (hk1 : (k 1).val = win0_1.index t 1 * 512 + 1 * (x 1).val) (hk2 : (k 2).val = win0_1.index t 2 * 1024 + 1 * (x 2).val) :
    (iblk m c 1 t : FVec Ideal S1x512x1024 .f32) x = (V m c main_arg1 : S16x1024x1024.Idx → EReal) k := by
  unfold iblk
  rw [View.read_apply]
  show (V m c main_arg1 : S16x1024x1024.Idx → EReal) _ = (V m c main_arg1 : S16x1024x1024.Idx → EReal) k
  refine congrArg _ (funext fun a => Fin.ext ?_)
  match a with
  | ⟨0, _⟩ => exact hk0.symm
  | ⟨1, _⟩ => exact hk1.symm
  | ⟨2, _⟩ => exact hk2.symm

/-- Window 2's block at a point, read at x, is the array it stages read where the block sits. -/
theorem blk2_apply (c : Dev nD) (t : Fin cfg0.N) (x : S1x1024x1024.Idx) (k : S16x1024x1024.Idx) (hk0 : (k 0).val = win0_2.index t 0 * 1 + 1 * (x 0).val) (hk1 : (k 1).val = win0_2.index t 1 * 1024 + 1 * (x 1).val) (hk2 : (k 2).val = win0_2.index t 2 * 1024 + 1 * (x 2).val) :
    (iblk m c 2 t : FVec Ideal S1x1024x1024 .bf16) x = (V m c main_v18 : S16x1024x1024.Idx → EReal) k := by
  unfold iblk
  rw [View.read_apply]
  show (V m c main_v18 : S16x1024x1024.Idx → EReal) _ = (V m c main_v18 : S16x1024x1024.Idx → EReal) k
  refine congrArg _ (funext fun a => Fin.ext ?_)
  match a with
  | ⟨0, _⟩ => exact hk0.symm
  | ⟨1, _⟩ => exact hk1.symm
  | ⟨2, _⟩ => exact hk2.symm

/-- Window 3's block at a point, read at x, is the array it stages read where the block sits. -/
theorem blk3_apply (c : Dev nD) (t : Fin cfg0.N) (x : S1x1024x1024.Idx) (k : S16x1024x1024.Idx) (hk0 : (k 0).val = win0_3.index t 0 * 1 + 1 * (x 0).val) (hk1 : (k 1).val = win0_3.index t 1 * 1024 + 1 * (x 1).val) (hk2 : (k 2).val = win0_3.index t 2 * 1024 + 1 * (x 2).val) :
    (iblk m c 3 t : FVec Ideal S1x1024x1024 .bf16) x = (V m c main_v19 : S16x1024x1024.Idx → EReal) k := by
  unfold iblk
  rw [View.read_apply]
  show (V m c main_v19 : S16x1024x1024.Idx → EReal) _ = (V m c main_v19 : S16x1024x1024.Idx → EReal) k
  refine congrArg _ (funext fun a => Fin.ext ?_)
  match a with
  | ⟨0, _⟩ => exact hk0.symm
  | ⟨1, _⟩ => exact hk1.symm
  | ⟨2, _⟩ => exact hk2.symm

/-- Window 4's block at a point, read at x, is the array it stages read where the block sits. -/
theorem blk4_apply (c : Dev nD) (t : Fin cfg0.N) (x : S1024x1024.Idx) (k : S1024x1024.Idx) (hk0 : (k 0).val = win0_4.index t 0 * 1024 + 1 * (x 0).val) (hk1 : (k 1).val = win0_4.index t 1 * 1024 + 1 * (x 1).val) :
    (iblk m c 4 t : FVec Ideal S1024x1024 .bf16) x = (V m c main_v13 : S1024x1024.Idx → EReal) k := by
  unfold iblk
  rw [View.read_apply]
  show (V m c main_v13 : S1024x1024.Idx → EReal) _ = (V m c main_v13 : S1024x1024.Idx → EReal) k
  refine congrArg _ (funext fun a => Fin.ext ?_)
  match a with
  | ⟨0, _⟩ => exact hk0.symm
  | ⟨1, _⟩ => exact hk1.symm

/-- Window 5's block at a point, read at x, is the array it stages read where the block sits. -/
theorem blk5_apply (c : Dev nD) (t : Fin cfg0.N) (x : S1024x1024.Idx) (k : S1024x1024.Idx) (hk0 : (k 0).val = win0_5.index t 0 * 1024 + 1 * (x 0).val) (hk1 : (k 1).val = win0_5.index t 1 * 1024 + 1 * (x 1).val) :
    (iblk m c 5 t : FVec Ideal S1024x1024 .bf16) x = (V m c main_v15 : S1024x1024.Idx → EReal) k := by
  unfold iblk
  rw [View.read_apply]
  show (V m c main_v15 : S1024x1024.Idx → EReal) _ = (V m c main_v15 : S1024x1024.Idx → EReal) k
  refine congrArg _ (funext fun a => Fin.ext ?_)
  match a with
  | ⟨0, _⟩ => exact hk0.symm
  | ⟨1, _⟩ => exact hk1.symm

/-- Window 6's block at a point, read at x, is the array it stages read where the block sits. -/
theorem blk6_apply (c : Dev nD) (t : Fin cfg0.N) (x : S1x1024.Idx) (k : S1x1024.Idx) (hk0 : (k 0).val = win0_6.index t 0 * 1 + 1 * (x 0).val) (hk1 : (k 1).val = win0_6.index t 1 * 1024 + 1 * (x 1).val) :
    (iblk m c 6 t : FVec Ideal S1x1024 .f32) x = (V m c main_v16 : S1x1024.Idx → EReal) k := by
  unfold iblk
  rw [View.read_apply]
  show (V m c main_v16 : S1x1024.Idx → EReal) _ = (V m c main_v16 : S1x1024.Idx → EReal) k
  refine congrArg _ (funext fun a => Fin.ext ?_)
  match a with
  | ⟨0, _⟩ => exact hk0.symm
  | ⟨1, _⟩ => exact hk1.symm

/-- Window 7's block at a point, read at x, is the array it stages read where the block sits. -/
theorem blk7_apply (c : Dev nD) (t : Fin cfg0.N) (x : S1x1024.Idx) (k : S1x1024.Idx) (hk0 : (k 0).val = win0_7.index t 0 * 1 + 1 * (x 0).val) (hk1 : (k 1).val = win0_7.index t 1 * 1024 + 1 * (x 1).val) :
    (iblk m c 7 t : FVec Ideal S1x1024 .f32) x = (V m c main_v17 : S1x1024.Idx → EReal) k := by
  unfold iblk
  rw [View.read_apply]
  show (V m c main_v17 : S1x1024.Idx → EReal) _ = (V m c main_v17 : S1x1024.Idx → EReal) k
  refine congrArg _ (funext fun a => Fin.ext ?_)
  match a with
  | ⟨0, _⟩ => exact hk0.symm
  | ⟨1, _⟩ => exact hk1.symm

/-! ## What each point writes back -/

/-- What point t writes back to the attention array is block t of the attention array. -/
theorem flushed9_eq (c : Dev nD) (t : Fin cfg0.N) :
    (dats m 0 c).flushed 9 t = ((cfg0.win 9).blk t).view.read (Elt Ideal) (attnArr (V m c main_arg0) (V m c main_arg1) (V m c main_v18) (V m c main_v13) (V m c main_v16)) := by
  rw [Cert.KernelIdeal.Value.flushed9]
  unfold out0_9
  rw [View.canon_unit_zero hz3]
  simp only [View.ld_unit_zero (S := S1x512x1024) hz3, View.ld_unit_zero (S := S1x1024x1024) hz3,
    View.ld_unit_zero (S := S1024x1024) hz2, View.ld_unit_zero (S := S1x1024) hz2]
  obtain ⟨⟨a00, a01, a02⟩, ⟨a10, a11, a12⟩, ⟨a20, a21, a22⟩, ⟨a30, a31, a32⟩, ⟨a40, a41⟩, ⟨a50, a51⟩, ⟨a60, a61⟩, ⟨a70, a71⟩, ⟨a80, a81, a82⟩, ⟨b0, b1, b2⟩⟩ := idx_facts t
  funext j
  obtain ⟨u, r, s, rfl⟩ : ∃ (u : Fin 1) (r : Fin 512) (s : Fin 1024), j = ix3 u r s := ⟨j 0, j 1, j 2, eq_ix3 j⟩
  have hu : u.val = 0 := by omega
  have hr : r.val < 512 := r.isLt
  have hs : s.val < 1024 := s.isLt
  refine ((KernelRows.attn_apply (iblk m c 0 t) (iblk m c 1 t) (iblk m c 2 t) (iblk m c 4 t) (iblk m c 6 t) u r s).trans ?_).trans
    (attnArr_apply (V m c main_arg0) (V m c main_arg1) (V m c main_v18) (V m c main_v13) (V m c main_v16)
      (((cfg0.win 9).blk t).view.emb (ix3 u r s)) ⟨win0_9.index t 0, b0⟩ ⟨win0_9.index t 1 * 512 + r.val, by omega⟩ s
      (by show win0_9.index t 0 * 1 + 1 * u.val = win0_9.index t 0; omega)
      (by show win0_9.index t 1 * 512 + 1 * r.val = win0_9.index t 1 * 512 + r.val; omega)
      (by show win0_9.index t 2 * 1024 + 1 * s.val = s.val; omega)).symm
  unfold attnAt
  refine congrArg (fun f => weightsRecip f s) ?_
  exact point_scores (iblk m c 0 t) (iblk m c 1 t) (iblk m c 2 t) (iblk m c 4 t) (iblk m c 6 t)
    (V m c main_arg0) (V m c main_arg1) (V m c main_v18) (V m c main_v13) (V m c main_v16) ⟨win0_9.index t 0, b0⟩ ⟨win0_9.index t 1 * 512 + r.val, by omega⟩ r
    (fun cc => blk0_apply m c t (ix3 (0 : Fin 1) r cc) (ix3 ⟨win0_9.index t 0, b0⟩ ⟨win0_9.index t 1 * 512 + r.val, by omega⟩ cc)
      (by show win0_9.index t 0 = win0_0.index t 0 * 1 + 1 * 0; omega)
      (by show win0_9.index t 1 * 512 + r.val = win0_0.index t 1 * 512 + 1 * r.val; omega)
      (by show cc.val = win0_0.index t 2 * 1024 + 1 * cc.val; omega))
    (fun cc => blk1_apply m c t (ix3 (0 : Fin 1) r cc) (ix3 ⟨win0_9.index t 0, b0⟩ ⟨win0_9.index t 1 * 512 + r.val, by omega⟩ cc)
      (by show win0_9.index t 0 = win0_1.index t 0 * 1 + 1 * 0; omega)
      (by show win0_9.index t 1 * 512 + r.val = win0_1.index t 1 * 512 + 1 * r.val; omega)
      (by show cc.val = win0_1.index t 2 * 1024 + 1 * cc.val; omega))
    (fun p q => blk2_apply m c t (ix3 (0 : Fin 1) p q) (ix3 ⟨win0_9.index t 0, b0⟩ p q)
      (by show win0_9.index t 0 = win0_2.index t 0 * 1 + 1 * 0; omega)
      (by show p.val = win0_2.index t 1 * 1024 + 1 * p.val; omega)
      (by show q.val = win0_2.index t 2 * 1024 + 1 * q.val; omega))
    (fun p q => blk4_apply m c t (ix2 p q) (ix2 p q)
      (by show p.val = win0_4.index t 0 * 1024 + 1 * p.val; omega)
      (by show q.val = win0_4.index t 1 * 1024 + 1 * q.val; omega))
    (fun q => blk6_apply m c t (ix2 (0 : Fin 1) q) (ix2 (0 : Fin 1) q)
      (by show 0 = win0_6.index t 0 * 1 + 1 * 0; omega)
      (by show q.val = win0_6.index t 1 * 1024 + 1 * q.val; omega))

/-- What point t writes back to the output array is block t of the output array. -/
theorem flushed8_eq (c : Dev nD) (t : Fin cfg0.N) :
    (dats m 0 c).flushed 8 t = ((cfg0.win 8).blk t).view.read (Elt Ideal) (outArr (V m c main_arg0) (V m c main_arg1) (V m c main_v18) (V m c main_v19) (V m c main_v13) (V m c main_v15) (V m c main_v16) (V m c main_v17)) := by
  rw [Cert.KernelIdeal.Value.flushed8]
  unfold out0_8
  rw [View.canon_unit_zero hz3]
  simp only [View.ld_unit_zero (S := S1x512x1024) hz3, View.ld_unit_zero (S := S1x1024x1024) hz3,
    View.ld_unit_zero (S := S1024x1024) hz2, View.ld_unit_zero (S := S1x1024) hz2]
  obtain ⟨⟨a00, a01, a02⟩, ⟨a10, a11, a12⟩, ⟨a20, a21, a22⟩, ⟨a30, a31, a32⟩, ⟨a40, a41⟩, ⟨a50, a51⟩, ⟨a60, a61⟩, ⟨a70, a71⟩, ⟨a80, a81, a82⟩, ⟨b0, b1, b2⟩⟩ := idx_facts t
  funext j
  obtain ⟨u, r, s, rfl⟩ : ∃ (u : Fin 1) (r : Fin 512) (s : Fin 1024), j = ix3 u r s := ⟨j 0, j 1, j 2, eq_ix3 j⟩
  have hu : u.val = 0 := by omega
  have hr : r.val < 512 := r.isLt
  have hs : s.val < 1024 := s.isLt
  refine ((KernelRows.out_apply (iblk m c 0 t) (iblk m c 1 t) (iblk m c 2 t) (iblk m c 3 t) (iblk m c 4 t) (iblk m c 5 t)
      (iblk m c 6 t) (iblk m c 7 t) u r s).trans ?_).trans
    (outArr_apply (V m c main_arg0) (V m c main_arg1) (V m c main_v18) (V m c main_v19) (V m c main_v13) (V m c main_v15) (V m c main_v16) (V m c main_v17)
      (((cfg0.win 8).blk t).view.emb (ix3 u r s)) ⟨win0_8.index t 0, by omega⟩ ⟨win0_8.index t 1 * 512 + r.val, by omega⟩ s
      (by show win0_8.index t 0 * 1 + 1 * u.val = win0_8.index t 0; omega)
      (by show win0_8.index t 1 * 512 + 1 * r.val = win0_8.index t 1 * 512 + r.val; omega)
      (by show win0_8.index t 2 * 1024 + 1 * s.val = s.val; omega)).symm
  exact point_out (iblk m c 0 t) (iblk m c 1 t) (iblk m c 2 t) (iblk m c 3 t) (iblk m c 4 t) (iblk m c 5 t) (iblk m c 6 t) (iblk m c 7 t)
    (V m c main_arg0) (V m c main_arg1) (V m c main_v18) (V m c main_v19) (V m c main_v13) (V m c main_v15) (V m c main_v16) (V m c main_v17) ⟨win0_8.index t 0, by omega⟩ ⟨win0_8.index t 1 * 512 + r.val, by omega⟩ r s
    (fun cc => blk0_apply m c t (ix3 (0 : Fin 1) r cc) (ix3 ⟨win0_8.index t 0, by omega⟩ ⟨win0_8.index t 1 * 512 + r.val, by omega⟩ cc)
      (by show win0_8.index t 0 = win0_0.index t 0 * 1 + 1 * 0; omega)
      (by show win0_8.index t 1 * 512 + r.val = win0_0.index t 1 * 512 + 1 * r.val; omega)
      (by show cc.val = win0_0.index t 2 * 1024 + 1 * cc.val; omega))
    (fun cc => blk1_apply m c t (ix3 (0 : Fin 1) r cc) (ix3 ⟨win0_8.index t 0, by omega⟩ ⟨win0_8.index t 1 * 512 + r.val, by omega⟩ cc)
      (by show win0_8.index t 0 = win0_1.index t 0 * 1 + 1 * 0; omega)
      (by show win0_8.index t 1 * 512 + r.val = win0_1.index t 1 * 512 + 1 * r.val; omega)
      (by show cc.val = win0_1.index t 2 * 1024 + 1 * cc.val; omega))
    (fun p q => blk2_apply m c t (ix3 (0 : Fin 1) p q) (ix3 ⟨win0_8.index t 0, by omega⟩ p q)
      (by show win0_8.index t 0 = win0_2.index t 0 * 1 + 1 * 0; omega)
      (by show p.val = win0_2.index t 1 * 1024 + 1 * p.val; omega)
      (by show q.val = win0_2.index t 2 * 1024 + 1 * q.val; omega))
    (fun p q => blk3_apply m c t (ix3 (0 : Fin 1) p q) (ix3 ⟨win0_8.index t 0, by omega⟩ p q)
      (by show win0_8.index t 0 = win0_3.index t 0 * 1 + 1 * 0; omega)
      (by show p.val = win0_3.index t 1 * 1024 + 1 * p.val; omega)
      (by show q.val = win0_3.index t 2 * 1024 + 1 * q.val; omega))
    (fun p q => blk4_apply m c t (ix2 p q) (ix2 p q)
      (by show p.val = win0_4.index t 0 * 1024 + 1 * p.val; omega)
      (by show q.val = win0_4.index t 1 * 1024 + 1 * q.val; omega))
    (fun p q => blk5_apply m c t (ix2 p q) (ix2 p q)
      (by show p.val = win0_5.index t 0 * 1024 + 1 * p.val; omega)
      (by show q.val = win0_5.index t 1 * 1024 + 1 * q.val; omega))
    (fun q => blk6_apply m c t (ix2 (0 : Fin 1) q) (ix2 (0 : Fin 1) q)
      (by show 0 = win0_6.index t 0 * 1 + 1 * 0; omega)
      (by show q.val = win0_6.index t 1 * 1024 + 1 * q.val; omega))
    (fun q => blk7_apply m c t (ix2 (0 : Fin 1) q) (ix2 (0 : Fin 1) q)
      (by show 0 = win0_7.index t 0 * 1 + 1 * 0; omega)
      (by show q.val = win0_7.index t 1 * 1024 + 1 * q.val; omega))

/-! ## The blocks cover the arrays -/

/-- An index of the array is in point t's block of window 9 iff each coordinate is in the block's range on its axis. -/
theorem mem_blk9 (t : Fin cfg0.N) (i : S16x1024x1024.Idx) :
    i ∈ ((cfg0.win 9).blk t).view.set ↔ ∀ a : Fin 3, win0_9.index t a * S1x512x1024.size a ≤ (i a).val ∧ (i a).val < win0_9.index t a * S1x512x1024.size a + S1x512x1024.size a := by
  show i ∈ ((View.whole main_v20_1).slice (win0_9.rect t)).set ↔ _
  rw [View.set_slice_whole, Rect.mem_set_unit]
  exact Iff.rfl

/-- The blocks of window 9 cover its array: row t of batch n lies in the block of point (n, t / 512). -/
theorem cover9 (i : S16x1024x1024.Idx) : ∃ t : Fin cfg0.N, (cfg0.win 9).flush t = true ∧ i ∈ ((cfg0.win 9).blk t).view.set := by
  have hi0 : (i 0).val < 16 := (i 0).isLt
  have hi1 : (i 1).val < 1024 := (i 1).isLt
  have hi2 : (i 2).val < 1024 := (i 2).isLt
  obtain ⟨t, ht⟩ := idx_onto9 ⟨(i 0).val, hi0⟩ ⟨(i 1).val / 512, by omega⟩
  have q0 : win0_9.index t 0 = (i 0).val := congrFun ht 0
  have q1 : win0_9.index t 1 = (i 1).val / 512 := congrFun ht 1
  have q2 : win0_9.index t 2 = 0 := congrFun ht 2
  refine ⟨t, flush0_9 t, ?_⟩
  rw [mem_blk9]
  intro a
  match a with
  | ⟨0, _⟩ => show win0_9.index t 0 * 1 ≤ (i 0).val ∧ (i 0).val < win0_9.index t 0 * 1 + 1; omega
  | ⟨1, _⟩ => show win0_9.index t 1 * 512 ≤ (i 1).val ∧ (i 1).val < win0_9.index t 1 * 512 + 512; omega
  | ⟨2, _⟩ => show win0_9.index t 2 * 1024 ≤ (i 2).val ∧ (i 2).val < win0_9.index t 2 * 1024 + 1024; omega

/-- An index of the array is in point t's block of window 8 iff each coordinate is in the block's range on its axis. -/
theorem mem_blk8 (t : Fin cfg0.N) (i : S16x1024x1024.Idx) :
    i ∈ ((cfg0.win 8).blk t).view.set ↔ ∀ a : Fin 3, win0_8.index t a * S1x512x1024.size a ≤ (i a).val ∧ (i a).val < win0_8.index t a * S1x512x1024.size a + S1x512x1024.size a := by
  show i ∈ ((View.whole main_v20_0).slice (win0_8.rect t)).set ↔ _
  rw [View.set_slice_whole, Rect.mem_set_unit]
  exact Iff.rfl

/-- The blocks of window 8 cover its array: row t of batch n lies in the block of point (n, t / 512). -/
theorem cover8 (i : S16x1024x1024.Idx) : ∃ t : Fin cfg0.N, (cfg0.win 8).flush t = true ∧ i ∈ ((cfg0.win 8).blk t).view.set := by
  have hi0 : (i 0).val < 16 := (i 0).isLt
  have hi1 : (i 1).val < 1024 := (i 1).isLt
  have hi2 : (i 2).val < 1024 := (i 2).isLt
  obtain ⟨t, ht⟩ := idx_onto8 ⟨(i 0).val, hi0⟩ ⟨(i 1).val / 512, by omega⟩
  have q0 : win0_8.index t 0 = (i 0).val := congrFun ht 0
  have q1 : win0_8.index t 1 = (i 1).val / 512 := congrFun ht 1
  have q2 : win0_8.index t 2 = 0 := congrFun ht 2
  refine ⟨t, flush0_8 t, ?_⟩
  rw [mem_blk8]
  intro a
  match a with
  | ⟨0, _⟩ => show win0_8.index t 0 * 1 ≤ (i 0).val ∧ (i 0).val < win0_8.index t 0 * 1 + 1; omega
  | ⟨1, _⟩ => show win0_8.index t 1 * 512 ≤ (i 1).val ∧ (i 1).val < win0_8.index t 1 * 512 + 512; omega
  | ⟨2, _⟩ => show win0_8.index t 2 * 1024 ≤ (i 2).val ∧ (i 2).val < win0_8.index t 2 * 1024 + 1024; omega

/-! ## The arrays after the run -/

/-- The attention array after the run. -/
theorem final9 (c : Dev nD) : (dats m 0 c).arrAt 9 cfg0.N = attnArr (V m c main_arg0) (V m c main_arg1) (V m c main_v18) (V m c main_v13) (V m c main_v16) :=
  (dats m 0 c).arrAt_eq_of_cover 9 (attnArr (V m c main_arg0) (V m c main_arg1) (V m c main_v18) (V m c main_v13) (V m c main_v16)) (fun t _ => flushed9_eq m c t) cover9

/-- The output array after the run. -/
theorem final8 (c : Dev nD) : (dats m 0 c).arrAt 8 cfg0.N = outArr (V m c main_arg0) (V m c main_arg1) (V m c main_v18) (V m c main_v19) (V m c main_v13) (V m c main_v15) (V m c main_v16) (V m c main_v17) :=
  (dats m 0 c).arrAt_eq_of_cover 8 (outArr (V m c main_arg0) (V m c main_arg1) (V m c main_v18) (V m c main_v19) (V m c main_v13) (V m c main_v15) (V m c main_v16) (V m c main_v17)) (fun t _ => flushed8_eq m c t) cover8

/-- The kernel's run, read: both result arrays at their functions of the staged arrays, the arguments unchanged. -/
theorem run : θ_run defs (onTc (τ := τ) (main (F := Ideal))) ⟨m, fun _ => 0, ρ⟩ fun r => ∀ c : Dev nD,
      r.2.mem ((c : Thread nD τ).loc main_v20_0) = outArr (V m c main_arg0) (V m c main_arg1) (V m c main_v18) (V m c main_v19) (V m c main_v13) (V m c main_v15) (V m c main_v16) (V m c main_v17)
      ∧ r.2.mem ((c : Thread nD τ).loc main_v20_1) = attnArr (V m c main_arg0) (V m c main_arg1) (V m c main_v18) (V m c main_v13) (V m c main_v16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final8 m c), (h c).2.1.trans (final9 m c), (h c).2.2⟩)
    (Cert.KernelIdeal.Value.run_blocks m ρ)

end Cert.KernelValue

end
-- ==== Proof.HostArrays.lean ====
/-
  The arrays the kernel's launch finds, as functions of the program's arguments.

  Before the launch the program forms the two weight-normalised projection matrices, transposes them, and re-lays the
  two biases as single rows; the key and value tensors only change format, which on the extended reals changes nothing.
  The normalised matrices are formed by the very operations the reference program uses, so each is stated as the
  reference's own stage, read transposed: entry (c, e) of the transposed input projection is entry (e, c) of the
  reference's normalised weight.
-/
import proofs.«146043_j47321949667345_2_alg».proof.Proof.Gen.KernelIdeal.Frame
import proofs.«146043_j47321949667345_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value

noncomputable section

namespace Cert.HostArrays

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The transposed, weight-normalised input projection the launch finds, as an array. -/
theorem wIn_eq : (V m c main_v13 : S1024x1024.Idx → EReal)
    = truncf (F := Ideal) .bf16 (transpose S1024x1024 [1, 0]
        (Cert.ReferenceIdeal.Read.val_main_v5 (F := Ideal) (m ((c : Thread nD τ).loc main_arg4)) (m ((c : Thread nD τ).loc main_arg5)))
        transposes_S1024x1024_S1024x1024_1_0) bitsLt_bf16_f32 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- Entry (c, e) of the transposed input projection is entry (e, c) of the normalised weight. -/
theorem wIn_apply (cc e : Fin 1024) :
    V m c main_v13 (ix2 cc e)
      = Cert.ReferenceIdeal.Read.val_main_v5 (F := Ideal) (m ((c : Thread nD τ).loc main_arg4)) (m ((c : Thread nD τ).loc main_arg5)) (ix2 e cc) := by
  rw [wIn_eq]
  exact transpose_apply [1, 0]
    (Cert.ReferenceIdeal.Read.val_main_v5 (F := Ideal) (m ((c : Thread nD τ).loc main_arg4)) (m ((c : Thread nD τ).loc main_arg5)))
    transposes_S1024x1024_S1024x1024_1_0 (ix2 cc e) (ix2 e cc) (fun d => match d with
    | ⟨0, _⟩ => rfl
    | ⟨1, _⟩ => rfl)

/-- The transposed, weight-normalised output projection the launch finds, as an array. -/
theorem wOut_eq : (V m c main_v15 : S1024x1024.Idx → EReal)
    = truncf (F := Ideal) .bf16 (transpose S1024x1024 [1, 0]
        (Cert.ReferenceIdeal.Read.val_main_v11 (F := Ideal) (m ((c : Thread nD τ).loc main_arg7)) (m ((c : Thread nD τ).loc main_arg8)))
        transposes_S1024x1024_S1024x1024_1_0) bitsLt_bf16_f32 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- Entry (e, c) of the transposed output projection is entry (c, e) of the normalised weight. -/
theorem wOut_apply (e cc : Fin 1024) :
    V m c main_v15 (ix2 e cc)
      = Cert.ReferenceIdeal.Read.val_main_v11 (F := Ideal) (m ((c : Thread nD τ).loc main_arg7)) (m ((c : Thread nD τ).loc main_arg8)) (ix2 cc e) := by
  rw [wOut_eq]
  exact transpose_apply [1, 0]
    (Cert.ReferenceIdeal.Read.val_main_v11 (F := Ideal) (m ((c : Thread nD τ).loc main_arg7)) (m ((c : Thread nD τ).loc main_arg8)))
    transposes_S1024x1024_S1024x1024_1_0 (ix2 e cc) (ix2 cc e) (fun d => match d with
    | ⟨0, _⟩ => rfl
    | ⟨1, _⟩ => rfl)

/-- The input projection's bias, laid as one row. -/
theorem bIn_eq : (V m c main_v16 : S1x1024.Idx → EReal)
    = shapeCast (α := EReal) S1x1024 (m ((c : Thread nD τ).loc main_arg6)) shapeCasts_S1024_S1x1024 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

theorem bIn_apply (u : Fin 1) (e : Fin 1024) :
    V m c main_v16 (ix2 u e) = m ((c : Thread nD τ).loc main_arg6) (ix1 e) := by
  rw [bIn_eq]
  exact shapeCast_a_1a_apply _ shapeCasts_S1024_S1x1024 u e

/-- The output projection's bias, laid as one row. -/
theorem bOut_eq : (V m c main_v17 : S1x1024.Idx → EReal)
    = shapeCast (α := EReal) S1x1024 (m ((c : Thread nD τ).loc main_arg9)) shapeCasts_S1024_S1x1024 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

theorem bOut_apply (u : Fin 1) (e : Fin 1024) :
    V m c main_v17 (ix2 u e) = m ((c : Thread nD τ).loc main_arg9) (ix1 e) := by
  rw [bOut_eq]
  exact shapeCast_a_1a_apply _ shapeCasts_S1024_S1x1024 u e

/-- The keys the launch finds are the argument's, entry by entry. -/
theorem keys_eq : (V m c main_v18 : S16x1024x1024.Idx → EReal) = m ((c : Thread nD τ).loc main_arg2) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The values the launch finds are the argument's, entry by entry. -/
theorem values_eq : (V m c main_v19 : S16x1024x1024.Idx → EReal) = m ((c : Thread nD τ).loc main_arg3) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

end Cert.HostArrays

end
-- ==== Proof.RefRows.lean ====
/-
  The reference program read row by row.

  The reference normalises two weight matrices (each row scaled by its gain over its Euclidean norm), projects the
  input rows, adds a bias and the target embeddings and scales by the square root of one half, takes the products
  with the keys, applies a softmax along the last axis, multiplies by the values and by thirty-two, projects back,
  adds a bias and the input and scales again. Here each of its stages is read at explicit coordinates — batch n, query
  position t, and a channel, feature or source position — and identified with the corresponding function of one row
  in the specification: the hidden row, the scores, the exponentials, their sum, the attention weights, the context
  row and the output row. The one stage that is a fold rather than a sum, the row maximum taken from minus infinity,
  is read as the fold of the maximum over the source positions of that row; the further maximum with minus infinity
  the program takes afterwards changes nothing.
-/
import proofs.«146043_j47321949667345_2_alg».proof.Proof.Gen.ReferenceIdeal.Read
import proofs.«146043_j47321949667345_2_alg».proof.Proof.AttnRows
import proofs.«146043_j47321949667345_2_alg».proof.Proof.LibSoftmaxRows
import Idealize.ShloMosaic.Lib.ValueIdx
import Idealize.ShloMosaic.PureOps.Reduce
import Idealize.ShloMosaic.PureOps.Ideal
import Idealize.ShloMosaic.PureOps.Ideal.Laws

noncomputable section

open scoped BigOperators

namespace Cert.RefRows

open Idealize.ShloMosaic Idealize.ShloMosaic.ValueIdx Cert.AttnRows Cert.Lib.SoftmaxRows Cert.ReferenceIdeal
  Cert.ReferenceIdeal.Gen Cert.ReferenceIdeal.Read

/-- A [16, 1024, 1024] array of extended reals. -/
abbrev Arr3 : Type := (⟨S16x1024x1024, .f32⟩ : BufTy).Contents (Elt Ideal)
/-- A [1024, 1024] array of extended reals. -/
abbrev Arr2 : Type := (⟨S1024x1024, .f32⟩ : BufTy).Contents (Elt Ideal)
/-- A [1024] array of extended reals. -/
abbrev Arr1 : Type := (⟨S1024, .f32⟩ : BufTy).Contents (Elt Ideal)

/-! ## The weight normalisation -/

/-- The input projection's normalised weight at row e, column c: the gain of row e times the entry, over the
    Euclidean norm of row e. -/
theorem weight_in (x4 : Arr2) (x5 : Arr1) (e c : Fin 1024) :
    val_main_v5 (F := Ideal) x4 x5 (ix2 e c)
      = weightNorm (fun e c => x4 (ix2 e c)) (fun e => x5 (ix1 e)) e c := by
  have h1 : idx_main_v0 (idx_main_v1 (ix2 e c)) = ix1 e :=
    funext fun a => Fin.ext (by match a with | ⟨0, _⟩ => rfl)
  have h2 : ∀ k : Fin 1024, idx_main_call0_v1 (idx_main_call0_v2 (idx_main_v4 (ix2 e c))) k = ix2 e k :=
    fun k => funext fun a => Fin.ext (by match a with | ⟨0, _⟩ => rfl | ⟨1, _⟩ => rfl)
  rw [val_main_v5_apply, val_main_v2_apply, val_main_v1_apply, val_main_v0_apply, val_main_v4_apply,
    val_main_v3_apply, val_main_call0_v2_apply, val_main_call0_v1_apply]
  simp only [val_main_call0_v0_apply, val_main_call0_cst_apply, h1, h2, Ideal.hostDivf_def, Ideal.mulf_def,
    Ideal.hostUnary_sqrt_def, Ideal.ofBits_def, Ideal.ofBits_zero_f32, zero_add]
  rfl

/-- The output projection's normalised weight at row c, column e. -/
theorem weight_out (x7 : Arr2) (x8 : Arr1) (c e : Fin 1024) :
    val_main_v11 (F := Ideal) x7 x8 (ix2 c e)
      = weightNorm (fun c e => x7 (ix2 c e)) (fun c => x8 (ix1 c)) c e := by
  have h1 : idx_main_v6 (idx_main_v7 (ix2 c e)) = ix1 c :=
    funext fun a => Fin.ext (by match a with | ⟨0, _⟩ => rfl)
  have h2 : ∀ k : Fin 1024, idx_main_call1_v1 (idx_main_call1_v2 (idx_main_v10 (ix2 c e))) k = ix2 c k :=
    fun k => funext fun a => Fin.ext (by match a with | ⟨0, _⟩ => rfl | ⟨1, _⟩ => rfl)
  rw [val_main_v11_apply, val_main_v8_apply, val_main_v7_apply, val_main_v6_apply, val_main_v10_apply,
    val_main_v9_apply, val_main_call1_v2_apply, val_main_call1_v1_apply]
  simp only [val_main_call1_v0_apply, val_main_call1_cst_apply, h1, h2, Ideal.hostDivf_def, Ideal.mulf_def,
    Ideal.hostUnary_sqrt_def, Ideal.ofBits_def, Ideal.ofBits_zero_f32, zero_add]
  rfl

/-! ## Coordinates of the operands -/

private theorem lidx12 (n : Fin 16) (t e k : Fin 1024) : lidx_main_v12 (ix3 n t e) k = ix3 n t k :=
  funext fun a => Fin.ext (by match a with | ⟨0, _⟩ => rfl | ⟨1, _⟩ => rfl | ⟨2, _⟩ => rfl)
private theorem ridx12 (n : Fin 16) (t e k : Fin 1024) : ridx_main_v12 (ix3 n t e) k = ix2 e k :=
  funext fun a => Fin.ext (by match a with | ⟨0, _⟩ => rfl | ⟨1, _⟩ => rfl)
private theorem idx14 (n : Fin 16) (t e : Fin 1024) : idx_main_v13 (idx_main_v14 (ix3 n t e)) = ix1 e :=
  funext fun a => Fin.ext (by match a with | ⟨0, _⟩ => rfl)
private theorem lidx19 (n : Fin 16) (t s k : Fin 1024) : lidx_main_v19 (ix3 n t s) k = ix3 n t k :=
  funext fun a => Fin.ext (by match a with | ⟨0, _⟩ => rfl | ⟨1, _⟩ => rfl | ⟨2, _⟩ => rfl)
private theorem ridx19 (n : Fin 16) (t s k : Fin 1024) : ridx_main_v19 (ix3 n t s) k = ix3 n k s :=
  funext fun a => Fin.ext (by match a with | ⟨0, _⟩ => rfl | ⟨1, _⟩ => rfl | ⟨2, _⟩ => rfl)
private theorem idx24 (n : Fin 16) (t s : Fin 1024) : idx_main_v23 (idx_main_v24 (ix3 n t s)) = ix2 n t :=
  funext fun a => Fin.ext (by match a with | ⟨0, _⟩ => rfl | ⟨1, _⟩ => rfl)
private theorem idx27 (n : Fin 16) (t k : Fin 1024) : idx_main_v27 (ix2 n t) k = ix3 n t k :=
  funext fun a => Fin.ext (by match a with | ⟨0, _⟩ => rfl | ⟨1, _⟩ => rfl | ⟨2, _⟩ => rfl)
private theorem idx29 (n : Fin 16) (t s : Fin 1024) : idx_main_v28 (idx_main_v29 (ix3 n t s)) = ix2 n t :=
  funext fun a => Fin.ext (by match a with | ⟨0, _⟩ => rfl | ⟨1, _⟩ => rfl)
private theorem lidx31 (n : Fin 16) (t e k : Fin 1024) : lidx_main_v31 (ix3 n t e) k = ix3 n t k :=
  funext fun a => Fin.ext (by match a with | ⟨0, _⟩ => rfl | ⟨1, _⟩ => rfl | ⟨2, _⟩ => rfl)
private theorem ridx31 (n : Fin 16) (t e k : Fin 1024) : ridx_main_v31 (ix3 n t e) k = ix3 n k e :=
  funext fun a => Fin.ext (by match a with | ⟨0, _⟩ => rfl | ⟨1, _⟩ => rfl | ⟨2, _⟩ => rfl)
private theorem lidx34 (n : Fin 16) (t c k : Fin 1024) : lidx_main_v34 (ix3 n t c) k = ix3 n t k :=
  funext fun a => Fin.ext (by match a with | ⟨0, _⟩ => rfl | ⟨1, _⟩ => rfl | ⟨2, _⟩ => rfl)
private theorem ridx34 (n : Fin 16) (t c k : Fin 1024) : ridx_main_v34 (ix3 n t c) k = ix2 c k :=
  funext fun a => Fin.ext (by match a with | ⟨0, _⟩ => rfl | ⟨1, _⟩ => rfl)
private theorem idx36 (n : Fin 16) (t c : Fin 1024) : idx_main_v35 (idx_main_v36 (ix3 n t c)) = ix1 c :=
  funext fun a => Fin.ext (by match a with | ⟨0, _⟩ => rfl)

/-! ## The hidden row and the scores -/

/-- The scores of query row (n, t): the hidden row of that query — its input row through the normalised input
    weight (read transposed: the projection contracts the row's channel with the weight's column), plus the bias
    and the target embedding, scaled — against the keys of batch n. -/
def refScores (x0 x1 x2 : Arr3) (x4 : Arr2) (x5 x6 : Arr1) (n : Fin 16) (t : Fin 1024) : Fin 1024 → EReal :=
  scores
    (hidden (fun c => x0 (ix3 n t c)) (fun e => x1 (ix3 n t e)) (fun e => x6 (ix1 e))
      (fun c e => val_main_v5 (F := Ideal) x4 x5 (ix2 e c)))
    (fun e s => x2 (ix3 n e s))

/-- The projected, biased and scaled stage at (n, t, e) is feature e of the hidden row of query (n, t). -/
theorem hidden_eq (x0 x1 : Arr3) (x4 : Arr2) (x5 x6 : Arr1) (n : Fin 16) (t e : Fin 1024) :
    val_main_v18 (F := Ideal) x0 x1 x4 x5 x6 (ix3 n t e)
      = hidden (fun c => x0 (ix3 n t c)) (fun e => x1 (ix3 n t e)) (fun e => x6 (ix1 e))
          (fun c e => val_main_v5 (F := Ideal) x4 x5 (ix2 e c)) e := by
  rw [val_main_v18_apply, val_main_v16_apply, val_main_v15_apply, val_main_v12_apply, val_main_v14_apply,
    val_main_v13_apply, val_main_v17_apply, val_main_cst_apply]
  simp only [lidx12, ridx12, idx14, Ideal.mulf_def, Ideal.addf_def, Ideal.ofBits_def]
  rfl

/-- The product with the keys at (n, t, s) is score s of query (n, t). -/
theorem scores_eq (x0 x1 x2 : Arr3) (x4 : Arr2) (x5 x6 : Arr1) (n : Fin 16) (t s : Fin 1024) :
    val_main_v19 (F := Ideal) x0 x1 x2 x4 x5 x6 (ix3 n t s) = refScores x0 x1 x2 x4 x5 x6 n t s := by
  rw [val_main_v19_apply]
  unfold refScores scores
  exact Finset.sum_congr rfl fun k _ => by rw [lidx19, ridx19, hidden_eq]

/-- Row (n, t) of the products with the keys is the score row of query (n, t). -/
theorem scoresRow_eq (x0 x1 x2 : Arr3) (x4 : Arr2) (x5 x6 : Arr1) (n : Fin 16) (t : Fin 1024) :
    (fun s : Fin 1024 => val_main_v19 (F := Ideal) x0 x1 x2 x4 x5 x6 (ix3 n t s)) = refScores x0 x1 x2 x4 x5 x6 n t :=
  funext fun s => scores_eq x0 x1 x2 x4 x5 x6 n t s

/-! ## The row maximum -/

/-- The reduction by maximum over the source positions, from minus infinity, at (n, t): the fold of the maximum
    over that row's scores. -/
theorem rowMaxFold_eq (x0 x1 x2 : Arr3) (x4 : Arr2) (x5 x6 : Arr1) (n : Fin 16) (t : Fin 1024) :
    val_main_v20 (F := Ideal) x0 x1 x2 x4 x5 x6 (ix2 n t) = rowMax (refScores x0 x1 x2 x4 x5 x6 n t) := by
  rw [← scoresRow_eq]
  unfold val_main_v20
  generalize val_main_v19 (F := Ideal) x0 x1 x2 x4 x5 x6 = y
  have hr : S16x1024x1024.Reduces [2] S16x1024 := by decide
  refine (Host.reduce_eq_fold_single (α := Ideal .f32) (FloatOps.maximumf (F := Ideal) (φ := .f32)) y
    (val_main_cst_0 (F := Ideal)) reducesTo_S16x1024x1024_S16x1024_d2 hr h_S_ (ix2 n t)).trans ?_
  exact Finset.fold_congr fun k _ =>
    congrArg y (funext fun d => Fin.ext (by match d with | ⟨0, _⟩ => rfl | ⟨1, _⟩ => rfl | ⟨2, _⟩ => rfl))

/-- One more maximum with minus infinity leaves the row's maximum as it is. -/
theorem rowMax_eq (x0 x1 x2 : Arr3) (x4 : Arr2) (x5 x6 : Arr1) (n : Fin 16) (t : Fin 1024) :
    val_main_v22 (F := Ideal) x0 x1 x2 x4 x5 x6 (ix2 n t) = rowMax (refScores x0 x1 x2 x4 x5 x6 n t) := by
  rw [val_main_v22_apply, val_main_v21_apply, val_main_cst_1_apply, rowMaxFold_eq]
  exact max_negInf_rowMax _

/-! ## The softmax -/

/-- The exponential stage at (n, t, s): the exponential of score s less the row's maximum. -/
theorem expo_eq (x0 x1 x2 : Arr3) (x4 : Arr2) (x5 x6 : Arr1) (n : Fin 16) (t s : Fin 1024) :
    val_main_v26 (F := Ideal) x0 x1 x2 x4 x5 x6 (ix3 n t s) = expo (refScores x0 x1 x2 x4 x5 x6 n t) s := by
  rw [val_main_v26_apply, val_main_v25_apply, val_main_v24_apply, val_main_v23_apply, idx24, rowMax_eq, scores_eq]
  rfl

/-- The sum of a row's exponentials, taken from zero. -/
theorem expoSum_eq (x0 x1 x2 : Arr3) (x4 : Arr2) (x5 x6 : Arr1) (n : Fin 16) (t : Fin 1024) :
    val_main_v27 (F := Ideal) x0 x1 x2 x4 x5 x6 (ix2 n t) = ∑ k : Fin 1024, expo (refScores x0 x1 x2 x4 x5 x6 n t) k := by
  rw [val_main_v27_apply, val_main_cst_2_apply, Ideal.ofBits_def, Ideal.ofBits_zero_f32, zero_add]
  exact Finset.sum_congr rfl fun k _ => by rw [idx27, expo_eq]

/-- The attention weights at (n, t, s): exponential s of the row over the row's sum of exponentials. -/
theorem attn_eq (x0 x1 x2 : Arr3) (x4 : Arr2) (x5 x6 : Arr1) (n : Fin 16) (t s : Fin 1024) :
    val_main_v30 (F := Ideal) x0 x1 x2 x4 x5 x6 (ix3 n t s) = weightsQuot (refScores x0 x1 x2 x4 x5 x6 n t) s := by
  rw [val_main_v30_apply, val_main_v29_apply, val_main_v28_apply, idx29, expoSum_eq, expo_eq]
  rfl

/-! ## The context and the output -/

/-- The weighted values, scaled by thirty-two, at (n, t, e): feature e of the context row of query (n, t). -/
theorem context_eq (x0 x1 x2 x3 : Arr3) (x4 : Arr2) (x5 x6 : Arr1) (n : Fin 16) (t e : Fin 1024) :
    val_main_v33 (F := Ideal) x0 x1 x2 x3 x4 x5 x6 (ix3 n t e)
      = context (weightsQuot (refScores x0 x1 x2 x4 x5 x6 n t)) (fun s e => x3 (ix3 n s e)) e := by
  rw [val_main_v33_apply, val_main_v31_apply, val_main_v32_apply, val_main_cst_3_apply]
  unfold context
  refine congrArg₂ (· * ·) (Finset.sum_congr rfl fun k _ => ?_) rfl
  rw [lidx31, ridx31, attn_eq]

/-- The output at (n, t, c): the context row through the normalised output weight (read transposed), plus the bias
    and the input row, scaled by the square root of one half. -/
theorem out_eq (x0 x1 x2 x3 : Arr3) (x4 : Arr2) (x5 x6 : Arr1) (x7 : Arr2) (x8 x9 : Arr1) (n : Fin 16) (t c : Fin 1024) :
    val_main_v40 (F := Ideal) x0 x1 x2 x3 x4 x5 x6 x7 x8 x9 (ix3 n t c)
      = output (context (weightsQuot (refScores x0 x1 x2 x4 x5 x6 n t)) (fun s e => x3 (ix3 n s e)))
          (fun e c => val_main_v11 (F := Ideal) x7 x8 (ix2 c e)) (fun c => x9 (ix1 c)) (fun c => x0 (ix3 n t c)) c := by
  rw [val_main_v40_apply, val_main_v38_apply, val_main_v37_apply, val_main_v34_apply, val_main_v36_apply,
    val_main_v35_apply, val_main_v39_apply, val_main_cst_4_apply, idx36]
  unfold output
  refine congrArg₂ (· * ·) (congrArg₂ (· + ·) (congrArg₂ (· + ·) (Finset.sum_congr rfl fun k _ => ?_) rfl) rfl) rfl
  rw [lidx34, ridx34, context_eq]

end Cert.RefRows

end
-- ==== Proof.AttnLaw.lean ====
/-
  The law that joins the two ways of writing the attention weights, and when it applies.

  On the extended reals p times the reciprocal of L equals p over L whenever L is not zero (at L = 0 the reciprocal of
  L is plus infinity and zero times it is zero, while zero over zero is minus infinity). The sum L of a row's
  exponentials is not zero when the row's scores are real numbers: then the row's maximum is not plus infinity, every
  score less the maximum is not minus infinity, every exponential is positive, and a sum of nonnegative terms one of
  which is positive is positive. The scores are real numbers when the row, the embeddings, the bias, the keys and the
  projection matrix are; and a weight-normalised matrix is real when its entries and gains are real and no row of it
  has norm zero.
-/
import Idealize.ShloMosaic.PureOps.Ideal
import Idealize.ShloMosaic.PureOps.Ideal.Laws
import proofs.«146043_j47321949667345_2_alg».proof.Proof.AttnRows

noncomputable section

open scoped BigOperators

namespace Cert.AttnLaw

open Idealize.ShloMosaic Cert.AttnRows Cert.Lib.SoftmaxRows

/-! ## The words both programs carry -/

/-- The word 0x3F800000 is the number one. -/
theorem oneWord_eq : oneWord = 1 := by
  simp [oneWord, Ideal.ofBits, Ideal.ieee]
  rw [← EReal.coe_mul, ← EReal.coe_one]
  exact congrArg _ (by norm_num)

/-- The word 0xFF800000 is minus infinity. -/
theorem negInf_eq : negInf = ⊥ := by
  simp [negInf, Ideal.ofBits, Ideal.ieee]

/-! ## Real numbers among the extended reals -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion of the reals into the extended reals commutes with a finite sum. -/
theorem coe_sum {ι : Type*} (s : Finset ι) (g : ι → ℝ) :
    ((∑ i ∈ s, g i : ℝ) : EReal) = ∑ i ∈ s, (g i : EReal) := by
  classical
  refine Finset.induction_on s (by simp) (fun a s ha ih => ?_)
  rw [Finset.sum_insert ha, Finset.sum_insert ha, EReal.coe_add, ih]

theorem IsReal.sum {n : Nat} (f : Fin n → EReal) (h : ∀ k, IsReal (f k)) : IsReal (∑ k : Fin n, f k) := by
  choose g hg using h
  exact ⟨∑ k : Fin n, g k, by rw [coe_sum]; exact Finset.sum_congr rfl fun k _ => hg k⟩

theorem sqrtHalf_real : IsReal sqrtHalf := by
  unfold sqrtHalf Ideal.ofBits Ideal.ieee
  simp only []
  norm_num
  exact ⟨_, rfl⟩

theorem thirtyTwo_real : IsReal thirtyTwo := by
  unfold thirtyTwo Ideal.ofBits Ideal.ieee
  simp only []
  norm_num
  exact ⟨_, rfl⟩

/-! ## The exponential -/

theorem exp_nonneg (x : EReal) : 0 ≤ Ideal.exp x := by
  induction x using EReal.rec with
  | bot => exact le_rfl
  | coe r => exact EReal.coe_nonneg.mpr (Real.exp_pos r).le
  | top => exact le_top

theorem exp_pos {x : EReal} (h : x ≠ ⊥) : 0 < Ideal.exp x := by
  induction x using EReal.rec with
  | bot => exact absurd rfl h
  | coe r => exact EReal.coe_pos.mpr (Real.exp_pos r)
  | top => exact EReal.zero_lt_top

theorem sub_ne_bot {x y : EReal} (hx : IsReal x) (hy : y ≠ ⊤) : x - y ≠ ⊥ := by
  obtain ⟨a, rfl⟩ := hx
  induction y using EReal.rec with
  | bot => simp
  | coe b => rw [← EReal.coe_sub]; exact EReal.coe_ne_bot _
  | top => exact absurd rfl hy

/-! ## The two forms of the weights -/

/-- p times the reciprocal of L is p over L when L is not zero. -/
theorem mul_recip_eq_div (p L : EReal) (hL : L ≠ 0) : p * Ideal.div 1 L = Ideal.div p L := by
  unfold Ideal.div
  rw [if_neg hL, if_neg hL, one_mul]

variable {C E S : Nat}

/-- The maximum of a row of real numbers, taken from minus infinity, is not plus infinity. -/
theorem rowMax_ne_top (sc : Fin S → EReal) (h : ∀ k, IsReal (sc k)) : rowMax sc ≠ ⊤ := by
  refine ne_of_lt ?_
  unfold rowMax
  rw [Finset.fold_max_lt]
  refine ⟨by rw [negInf_eq]; exact bot_lt_top, fun k _ => ?_⟩
  obtain ⟨a, ha⟩ := h k
  rw [ha]
  exact EReal.coe_lt_top a

/-- The sum of a nonempty row's exponentials is not zero when the row's scores are real. -/
theorem sumExpo_ne_zero (sc : Fin S → EReal) (k0 : Fin S) (h : ∀ k, IsReal (sc k)) : (∑ k : Fin S, expo sc k) ≠ 0 := by
  have hpos : 0 < expo sc k0 := exp_pos (sub_ne_bot (h k0) (rowMax_ne_top sc h))
  have hle : expo sc k0 ≤ ∑ k : Fin S, expo sc k :=
    Finset.single_le_sum (f := fun k => expo sc k) (fun k _ => exp_nonneg _) (Finset.mem_univ k0)
  exact ne_of_gt (lt_of_lt_of_le hpos hle)

/-- On a nonempty row of real scores the reciprocal form of the weights is the quotient form. -/
theorem weightsRecip_eq_quot (sc : Fin S → EReal) (k0 : Fin S) (h : ∀ k, IsReal (sc k)) :
    weightsRecip sc = weightsQuot sc := by
  funext s
  unfold weightsRecip weightsQuot
  rw [oneWord_eq]
  exact mul_recip_eq_div _ _ (sumExpo_ne_zero sc k0 h)

/-! ## When the scores are real -/

theorem hidden_real (x : Fin C → EReal) (t b : Fin E → EReal) (W : Fin C → Fin E → EReal)
    (hx : ∀ c, IsReal (x c)) (ht : ∀ e, IsReal (t e)) (hb : ∀ e, IsReal (b e)) (hW : ∀ c e, IsReal (W c e)) (e : Fin E) :
    IsReal (AttnRows.hidden x t b W e) := by
  unfold AttnRows.hidden
  exact (((IsReal.sum _ fun c => (hx c).mul (hW c e)).add (hb e)).add (ht e)).mul sqrtHalf_real

theorem scores_real (h : Fin E → EReal) (K : Fin E → Fin S → EReal) (hh : ∀ e, IsReal (h e)) (hK : ∀ e s, IsReal (K e s))
    (s : Fin S) : IsReal (scores h K s) := by
  unfold scores
  exact IsReal.sum _ fun e => (hh e).mul (hK e s)

/-- A weight-normalised entry is real when the matrix and the gains are real and the row's sum of squares is positive. -/
theorem weightNorm_real (v : Fin E → Fin C → EReal) (g : Fin E → EReal) (hv : ∀ e c, IsReal (v e c)) (hg : ∀ e, IsReal (g e))
    (e : Fin E) (hpos : (0 : EReal) < ∑ k : Fin C, v e k * v e k) (c : Fin C) : IsReal (weightNorm v g e c) := by
  unfold weightNorm
  obtain ⟨ρ, hρ⟩ := IsReal.sum (fun k => v e k * v e k) fun k => (hv e k).mul (hv e k)
  rw [hρ] at hpos ⊢
  have hρpos : 0 < ρ := EReal.coe_pos.mp hpos
  have hsq : Ideal.sqrt (ρ : EReal) = ((Real.sqrt ρ : ℝ) : EReal) := by
    show (if ρ < 0 then (⊥ : EReal) else ((Real.sqrt ρ : ℝ) : EReal)) = _
    rw [if_neg (not_lt.mpr hρpos.le)]
  rw [hsq, Ideal.div_coe (ne_of_gt (Real.sqrt_pos.mpr hρpos))]
  exact ((hg e).mul (hv e c)).mul ⟨_, rfl⟩

end Cert.AttnLaw

end
-- ==== Proof.FiniteInputs.lean ====
/-
  The precondition finite_inputs, read back at the extended reals: from the printed predicate being
  true, every entry of each of the ten arrays is a real number, and every row of the fifth array has a
  positive sum of squares.
-/
import proofs.«146043_j47321949667345_2_alg».proof.Pre_finite_inputs
import proofs.«146043_j47321949667345_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.FiniteInputs

open Idealize.ShloMosaic
open Cert.Pre_finite_inputs

/-- The rank-0 shape has exactly one index. -/
instance : Subsingleton S_.Idx := ⟨fun a b => funext fun d => d.elim0⟩

/-- The pattern of +∞ denotes the top of the extended reals. -/
theorem ofBits_inf_f32 : Ideal.ofBits .f32 0x7F800000#32 = ⊤ := by simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A comparison bit for x < y that is 1 says x < y. -/
theorem lt_of_cmp_olt (x y : EReal) (h : Ideal.cmp .olt x y = 1#1) : x < y := by
  unfold Ideal.cmp at h
  by_contra hn
  simp [hn] at h

/-- A comparison bit for x > y that is 1 says y < x. -/
theorem lt_of_cmp_ogt (x y : EReal) (h : Ideal.cmp .ogt x y = 1#1) : y < x := by
  unfold Ideal.cmp at h
  by_contra hn
  simp [hn] at h

/-- One conjunct of the predicate: all(|a| < +∞) over an array of any shape, reduced to a scalar that is 1,
    says every entry of the array is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant S_ .f32 0x7F800000#32)))
          (constantI S_ 1 1#1) hr hu ValueIdx.ix0 = 1#1) :
    ∀ i, ∃ r : ℝ, a i = (r : EReal) := by
  intro i
  have hi := Host.reduce_andi_all _ _ hr hu ValueIdx.ix0 e i
  have hi' : Ideal.cmp .olt (max (a i) (-(a i))) (Ideal.ofBits .f32 0x7F800000#32) = 1#1 := hi
  rw [ofBits_inf_f32] at hi'
  exact real_of_abs_lt_top _ (lt_of_cmp_olt _ _ hi')

variable [Cert.Pre_finite_inputs.Facts]
open Cert.Pre_finite_inputs.Facts

/-- The last conjunct: all(sum over axis 1 of a * a > 0), reduced to a scalar that is 1, says every row's
    sum of squares is positive. -/
theorem rows_pos (a : FVec Ideal S1024x1024 .f32)
    (e : Host.reduce IntOp.andi
          (cmpf .ogt (Host.reduceAdd (mulf a a) (constant S_ .f32 0x00000000#32) reducesTo_S1024x1024_S1024_d1 h_S_)
            (broadcastInDim S1024 ![] bcast_S_S1024 (constant S_ .f32 0x00000000#32)))
          (constantI S_ 1 1#1) reducesTo_S1024_S_d0 h_S_ ValueIdx.ix0 = 1#1) :
    ∀ r : Fin 1024, (0 : EReal) < ∑ k : Fin 1024, a (ValueIdx.ix2 r k) * a (ValueIdx.ix2 r k) := by
  intro r
  have hi := Host.reduce_andi_all _ _ reducesTo_S1024_S_d0 h_S_ ValueIdx.ix0 e (ValueIdx.ix1 r)
  have hi' : Ideal.cmp .ogt
      (Host.reduceAdd (mulf a a) (constant S_ .f32 0x00000000#32) reducesTo_S1024x1024_S1024_d1 h_S_ (ValueIdx.ix1 r))
      (Ideal.ofBits .f32 0x00000000#32) = 1#1 := hi
  have hlt := lt_of_cmp_ogt _ _ hi'
  rw [Ideal.ofBits_zero_f32] at hlt
  have hsum : Host.reduceAdd (mulf a a) (constant S_ .f32 0x00000000#32) reducesTo_S1024x1024_S1024_d1 h_S_ (ValueIdx.ix1 r)
      = ∑ k : Fin 1024, a (ValueIdx.ix2 r k) * a (ValueIdx.ix2 r k) := by
    generalize hy : mulf a a = y
    simp only [Host.reduceAdd, Ideal.hostReduceAdd_def]
    rw [Ideal.hostReduceAdd_single reducesTo_S1024x1024_S1024_d1 (by decide)]
    subst hy
    show Ideal.ofBits .f32 0x00000000#32 + _ = _
    rw [Ideal.ofBits_zero_f32, zero_add]
    refine Finset.sum_congr rfl fun k _ => ?_
    have hk : (Shape.Reduces.lift (s := S1024x1024) (t := S1024) (a := (1 : Fin 2)) (by decide) (ValueIdx.ix1 r) k) = ValueIdx.ix2 r k :=
      funext fun d => Fin.ext (by match d with | ⟨0, _⟩ => rfl | ⟨1, _⟩ => rfl)
    show a _ * a _ = _
    rw [hk]
    rfl
  rw [hsum] at hlt
  exact hlt

/-- The conjunction of two scalar bits, read at the one index. -/
theorem andi_ix0 (x y : IVec S_ 1) (j : S_.Idx) : andi x y j = IntOp.andi (x j) (y j) := rfl

section Decode

variable (a0 a1 a2 a3 : FVec Ideal S16x1024x1024 .f32) (a4 : FVec Ideal S1024x1024 .f32)
  (a5 a6 : FVec Ideal S1024 .f32) (a7 : FVec Ideal S1024x1024 .f32) (a8 a9 : FVec Ideal S1024 .f32)

/-- The predicate being true gives all eleven facts at once: the conjunction is split into its conjuncts, and each
    is read back by the lemma for its kind. -/
theorem decode (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) ∧
    (∀ i, ∃ r : ℝ, a9 i = (r : EReal)) ∧
    (∀ e : Fin 1024, (0 : EReal) < ∑ k : Fin 1024, a4 (ValueIdx.ix2 e k) * a4 (ValueIdx.ix2 e k)) := by
  have h0 := congrFun h ValueIdx.ix0
  dsimp only [Cert.Pre_finite_inputs.fn, Cert.Pre_finite_inputs.fn_part1, Cert.Pre_finite_inputs.fn_part2,
    Cert.Pre_finite_inputs.fn_part3] at h0
  simp only [andi_ix0, IntOp.andi_eq_one] at h0
  obtain ⟨⟨⟨⟨⟨⟨⟨⟨⟨⟨e0, e1⟩, e2⟩, e3⟩, e4⟩, e5⟩, e6⟩, e7⟩, e8⟩, e9⟩, en⟩ := h0
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7,
    all_real a8 _ _ _ e8, all_real a9 _ _ _ e9, rows_pos a4 en⟩

end Decode

section Facts

variable {a0 a1 a2 a3 : FVec Ideal S16x1024x1024 .f32} {a4 : FVec Ideal S1024x1024 .f32}
  {a5 a6 : FVec Ideal S1024 .f32} {a7 : FVec Ideal S1024x1024 .f32} {a8 a9 : FVec Ideal S1024 .f32}

/-- Every entry of the first array is a real number. -/
theorem real_a0 (h : Cert.Pre_finite_inputs.fn (F := Ideal) a0 a1 a2 a3 a4 a5 a6 a7 a8 a9 = fun _ => 1#1) :
    ∀ i, ∃ r : ℝ, a0 i = (r : EReal) := (decode a0 a1 a2 a3 a4 a5 a6 a7 a8 a9 h).1

/-- Every entry of the second array is a real number. -/
theorem real_a1 (h : Cert.Pre_finite_inputs.fn (F := Ideal) a0 a1 a2 a3 a4 a5 a6 a7 a8 a9 = fun _ => 1#1) :
    ∀ i, ∃ r : ℝ, a1 i = (r : EReal) := (decode a0 a1 a2 a3 a4 a5 a6 a7 a8 a9 h).2.1

/-- Every entry of the third array is a real number. -/
theorem real_a2 (h : Cert.Pre_finite_inputs.fn (F := Ideal) a0 a1 a2 a3 a4 a5 a6 a7 a8 a9 = fun _ => 1#1) :
    ∀ i, ∃ r : ℝ, a2 i = (r : EReal) := (decode a0 a1 a2 a3 a4 a5 a6 a7 a8 a9 h).2.2.1

/-- Every entry of the fourth array is a real number. -/
theorem real_a3 (h : Cert.Pre_finite_inputs.fn (F := Ideal) a0 a1 a2 a3 a4 a5 a6 a7 a8 a9 = fun _ => 1#1) :
    ∀ i, ∃ r : ℝ, a3 i = (r : EReal) := (decode a0 a1 a2 a3 a4 a5 a6 a7 a8 a9 h).2.2.2.1

/-- Every entry of the fifth array is a real number. -/
theorem real_a4 (h : Cert.Pre_finite_inputs.fn (F := Ideal) a0 a1 a2 a3 a4 a5 a6 a7 a8 a9 = fun _ => 1#1) :
    ∀ i, ∃ r : ℝ, a4 i = (r : EReal) := (decode a0 a1 a2 a3 a4 a5 a6 a7 a8 a9 h).2.2.2.2.1

/-- Every entry of the sixth array is a real number. -/
theorem real_a5 (h : Cert.Pre_finite_inputs.fn (F := Ideal) a0 a1 a2 a3 a4 a5 a6 a7 a8 a9 = fun _ => 1#1) :
    ∀ i, ∃ r : ℝ, a5 i = (r : EReal) := (decode a0 a1 a2 a3 a4 a5 a6 a7 a8 a9 h).2.2.2.2.2.1

/-- Every entry of the seventh array is a real number. -/
theorem real_a6 (h : Cert.Pre_finite_inputs.fn (F := Ideal) a0 a1 a2 a3 a4 a5 a6 a7 a8 a9 = fun _ => 1#1) :
    ∀ i, ∃ r : ℝ, a6 i = (r : EReal) := (decode a0 a1 a2 a3 a4 a5 a6 a7 a8 a9 h).2.2.2.2.2.2.1

/-- Every entry of the eighth array is a real number. -/
theorem real_a7 (h : Cert.Pre_finite_inputs.fn (F := Ideal) a0 a1 a2 a3 a4 a5 a6 a7 a8 a9 = fun _ => 1#1) :
    ∀ i, ∃ r : ℝ, a7 i = (r : EReal) := (decode a0 a1 a2 a3 a4 a5 a6 a7 a8 a9 h).2.2.2.2.2.2.2.1

/-- Every entry of the ninth array is a real number. -/
theorem real_a8 (h : Cert.Pre_finite_inputs.fn (F := Ideal) a0 a1 a2 a3 a4 a5 a6 a7 a8 a9 = fun _ => 1#1) :
    ∀ i, ∃ r : ℝ, a8 i = (r : EReal) := (decode a0 a1 a2 a3 a4 a5 a6 a7 a8 a9 h).2.2.2.2.2.2.2.2.1

/-- Every entry of the tenth array is a real number. -/
theorem real_a9 (h : Cert.Pre_finite_inputs.fn (F := Ideal) a0 a1 a2 a3 a4 a5 a6 a7 a8 a9 = fun _ => 1#1) :
    ∀ i, ∃ r : ℝ, a9 i = (r : EReal) := (decode a0 a1 a2 a3 a4 a5 a6 a7 a8 a9 h).2.2.2.2.2.2.2.2.2.1

/-- Every row of the fifth array has a positive sum of squares. -/
theorem norm_pos (h : Cert.Pre_finite_inputs.fn (F := Ideal) a0 a1 a2 a3 a4 a5 a6 a7 a8 a9 = fun _ => 1#1) :
    ∀ e : Fin 1024, (0 : EReal) < ∑ k : Fin 1024, a4 (ValueIdx.ix2 e k) * a4 (ValueIdx.ix2 e k) := (decode a0 a1 a2 a3 a4 a5 a6 a7 a8 a9 h).2.2.2.2.2.2.2.2.2.2

end Facts

end Cert.FiniteInputs

end
-- ==== Proof.Bridge.lean ====
/-
  The kernel's two result arrays are the reference's two results.

  The arrays the launch finds are the arguments themselves, or the reference's own normalised weights read transposed,
  or the biases laid as rows; so the scores of a query row as the kernel forms them are the scores as the reference
  forms them. Under the precondition every argument entry is a real number and no row of the input projection's matrix
  has norm zero, so the normalised input weight, the hidden rows and the scores are real numbers, each row's sum of
  exponentials is not zero, and the kernel's exponential times the reciprocal of the sum is the reference's exponential
  over the sum. The context and the output then apply the same operations to the same numbers.
-/
import proofs.«146043_j47321949667345_2_alg».proof.Proof.KernelValue
import proofs.«146043_j47321949667345_2_alg».proof.Proof.HostArrays
import proofs.«146043_j47321949667345_2_alg».proof.Proof.RefRows
import proofs.«146043_j47321949667345_2_alg».proof.Proof.AttnLaw
import proofs.«146043_j47321949667345_2_alg».proof.Proof.FiniteInputs

noncomputable section

open scoped BigOperators

namespace Cert.Bridge

open Idealize.ShloMosaic Idealize.ShloMosaic.TcCoe Idealize.SL.Sem Idealize.ShloMosaic.ValueIdx
open Cert.KernelIdeal Cert.KernelIdeal.Gen Cert.AttnRows Cert.AttnLaw

/-- The reference's scores of a query row are real numbers when the arguments are and no row of the input projection's
    matrix has norm zero. -/
theorem refScores_real (x0 x1 x2 : Cert.RefRows.Arr3) (x4 : Cert.RefRows.Arr2) (x5 x6 : Cert.RefRows.Arr1)
    (h0 : ∀ i, IsReal (x0 i)) (h1 : ∀ i, IsReal (x1 i)) (h2 : ∀ i, IsReal (x2 i)) (h4 : ∀ i, IsReal (x4 i))
    (h5 : ∀ i, IsReal (x5 i)) (h6 : ∀ i, IsReal (x6 i))
    (hpos : ∀ e : Fin 1024, (0 : EReal) < ∑ k : Fin 1024, x4 (ix2 e k) * x4 (ix2 e k))
    (n : Fin 16) (t s : Fin 1024) : IsReal (Cert.RefRows.refScores x0 x1 x2 x4 x5 x6 n t s) := by
  unfold Cert.RefRows.refScores
  refine scores_real _ _ (fun e => hidden_real _ _ _ _ (fun cc => h0 _) (fun e => h1 _) (fun e => h6 _) (fun cc e => ?_) e)
    (fun e s => h2 _) s
  rw [Cert.RefRows.weight_in]
  exact weightNorm_real _ _ (fun e cc => h4 _) (fun e => h5 _) e (hpos e) cc

variable (m : (ℓ : Loc nD τ sig) → Buf (Elt Ideal) ℓ) (c : Dev nD)

/-- The scores of a query row from the staged arrays are the reference's scores from the arguments. -/
theorem kScores_eq (n : Fin 16) (t : Fin 1024) :
    Cert.KernelValue.kScores (V m c main_arg0) (V m c main_arg1) (V m c main_v18) (V m c main_v13) (V m c main_v16) n t
      = Cert.RefRows.refScores (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) n t := by
  unfold Cert.KernelValue.kScores Cert.RefRows.refScores
  rw [V_main_arg0, V_main_arg1, Cert.HostArrays.keys_eq]
  have e1 : (fun (cc e : Fin 1024) => V m c main_v13 (ix2 cc e))
      = fun (cc e : Fin 1024) => Cert.ReferenceIdeal.Read.val_main_v5 (F := Ideal) (m ((c : Thread nD τ).loc main_arg4)) (m ((c : Thread nD τ).loc main_arg5)) (ix2 e cc) :=
    funext fun cc => funext fun e => Cert.HostArrays.wIn_apply m c cc e
  have e2 : (fun e : Fin 1024 => V m c main_v16 (ix2 (0 : Fin 1) e)) = fun e : Fin 1024 => (m ((c : Thread nD τ).loc main_arg6)) (ix1 e) :=
    funext fun e => Cert.HostArrays.bIn_apply m c 0 e
  exact congrArg₂ (fun (W : Fin 1024 → Fin 1024 → EReal) (b : Fin 1024 → EReal) =>
    scores (AttnRows.hidden (fun cc : Fin 1024 => (m ((c : Thread nD τ).loc main_arg0)) (ix3 n t cc)) (fun e : Fin 1024 => (m ((c : Thread nD τ).loc main_arg1)) (ix3 n t e)) b W)
      (fun (e k : Fin 1024) => (m ((c : Thread nD τ).loc main_arg2)) (ix3 n e k))) e1 e2

variable [Cert.Pre_finite_inputs.Facts]

/-- Under the precondition the reference's scores of every query row are real numbers. -/
theorem scores_real_of_pre
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1)
    (n : Fin 16) (t s : Fin 1024) :
    IsReal (Cert.RefRows.refScores (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) n t s) :=
  refScores_real _ _ _ _ _ _ (Cert.FiniteInputs.real_a0 hpre) (Cert.FiniteInputs.real_a1 hpre) (Cert.FiniteInputs.real_a2 hpre)
    (Cert.FiniteInputs.real_a4 hpre) (Cert.FiniteInputs.real_a5 hpre) (Cert.FiniteInputs.real_a6 hpre)
    (Cert.FiniteInputs.norm_pos hpre) n t s

/-- The kernel's attention array is the reference's attention weights. -/
theorem attn_bridge
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1) :
    Cert.KernelValue.attnArr (V m c main_arg0) (V m c main_arg1) (V m c main_v18) (V m c main_v13) (V m c main_v16)
      = Cert.ReferenceIdeal.Read.val_main_v30 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  funext i
  obtain ⟨n, t, s, rfl⟩ : ∃ (n : Fin 16) (t s : Fin 1024), i = ix3 n t s := ⟨i 0, i 1, i 2, eq_ix3 i⟩
  rw [Cert.KernelValue.attnArr_apply _ _ _ _ _ (ix3 n t s) n t s rfl rfl rfl, Cert.RefRows.attn_eq]
  unfold Cert.KernelValue.attnAt
  rw [kScores_eq]
  exact congrFun (weightsRecip_eq_quot _ (⟨0, by decide⟩ : Fin 1024) (fun k => scores_real_of_pre m c hpre n t k)) s

/-- The kernel's output array is the reference's output. -/
theorem out_bridge
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1) :
    Cert.KernelValue.outArr (V m c main_arg0) (V m c main_arg1) (V m c main_v18) (V m c main_v19) (V m c main_v13) (V m c main_v15)
        (V m c main_v16) (V m c main_v17)
      = Cert.ReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨n, t, s, rfl⟩ : ∃ (n : Fin 16) (t s : Fin 1024), i = ix3 n t s := ⟨i 0, i 1, i 2, eq_ix3 i⟩
  rw [Cert.KernelValue.outArr_apply _ _ _ _ _ _ _ _ (ix3 n t s) n t s rfl rfl rfl, Cert.RefRows.out_eq]
  unfold Cert.KernelValue.outAt
  rw [kScores_eq, weightsRecip_eq_quot _ (⟨0, by decide⟩ : Fin 1024) (fun k => scores_real_of_pre m c hpre n t k),
    V_main_arg0, Cert.HostArrays.values_eq]
  have e3 : (fun (e cc : Fin 1024) => V m c main_v15 (ix2 e cc))
      = fun (e cc : Fin 1024) => Cert.ReferenceIdeal.Read.val_main_v11 (F := Ideal) (m ((c : Thread nD τ).loc main_arg7)) (m ((c : Thread nD τ).loc main_arg8)) (ix2 cc e) :=
    funext fun e => funext fun cc => Cert.HostArrays.wOut_apply m c e cc
  have e4 : (fun cc : Fin 1024 => V m c main_v17 (ix2 (0 : Fin 1) cc)) = fun cc : Fin 1024 => (m ((c : Thread nD τ).loc main_arg9)) (ix1 cc) :=
    funext fun cc => Cert.HostArrays.bOut_apply m c 0 cc
  exact congrArg₂ (fun (W : Fin 1024 → Fin 1024 → EReal) (b : Fin 1024 → EReal) =>
    output (context (weightsQuot (Cert.RefRows.refScores (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) n t)) (fun (s e : Fin 1024) => (m ((c : Thread nD τ).loc main_arg3)) (ix3 n s e)))
      W b (fun cc : Fin 1024 => (m ((c : Thread nD τ).loc main_arg0)) (ix3 n t cc)) s) e3 e4

end Cert.Bridge

end
-- ==== Proof.lean ====
/-
  The certificate of the fused attention kernel against its reference, on the extended reals.

  Both programs form the same two weight-normalised projection matrices, project each query row, score it against the
  keys, take the softmax of the scores, weight the values, scale by thirty-two and project out, adding biases and the
  residual row and scaling by the square root of one half. They differ in the tiling (the kernel works on blocks of 512
  query rows of one batch), in changes of float format (the identity on the extended reals), in one extra maximum with
  minus infinity on the reference's side, and in the last step of the softmax: the kernel multiplies each exponential by
  the reciprocal of the row's sum of exponentials where the reference divides by the sum. The two agree exactly when the
  sum is not zero; the precondition (every input finite, and no row of the input projection's matrix of norm zero, where
  the reference itself divides zero by zero) makes every score a real number and so every sum at least one exponential
  of zero.

  The three frames are the generated ones (the reference's is its generated run with the results dropped); the ideal
  pass rewrote nothing, so the kernel's idealization is the program's own text; the algebraic claim sets the kernel's
  run, with each result array as one function of the arguments, beside the reference's run.
-/
import proofs.«146043_j47321949667345_2_alg».proof.Defs
import proofs.«146043_j47321949667345_2_alg».proof.Proof.Gen.Kernel
import proofs.«146043_j47321949667345_2_alg».proof.Proof.Gen.Kernel.Frame
import proofs.«146043_j47321949667345_2_alg».proof.Proof.Gen.KernelIdeal
import proofs.«146043_j47321949667345_2_alg».proof.Proof.Gen.KernelIdeal.Frame
import proofs.«146043_j47321949667345_2_alg».proof.Proof.Gen.KernelIdeal.Value
import proofs.«146043_j47321949667345_2_alg».proof.Proof.Gen.ReferenceIdeal
import proofs.«146043_j47321949667345_2_alg».proof.Proof.Gen.ReferenceIdeal.Run
import proofs.«146043_j47321949667345_2_alg».proof.Proof.Gen.ReferenceIdeal.Read
import proofs.«146043_j47321949667345_2_alg».proof.Proof.Gen.Pre_finite_inputs
import proofs.«146043_j47321949667345_2_alg».proof.Proof.KernelValue
import proofs.«146043_j47321949667345_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel. -/
theorem preserves : Cert.preserves_Kernel_KernelIdeal := trivial

/-- From memories agreeing on the arguments both programs end with the same two arrays: the kernel's run leaves the
    output and the attention weights as functions of the arguments, and under the precondition those are the
    reference's two results. -/
theorem algebraic : Cert.algebraic_KernelIdeal_ReferenceIdeal := by
  intro m ρ m' ρ' hpre hagree
  refine ⟨fun c => Cert.KernelValue.outArr (Cert.KernelIdeal.Gen.V m c Cert.KernelIdeal.main_arg0) (Cert.KernelIdeal.Gen.V m c Cert.KernelIdeal.main_arg1)
      (Cert.KernelIdeal.Gen.V m c Cert.KernelIdeal.main_v18) (Cert.KernelIdeal.Gen.V m c Cert.KernelIdeal.main_v19)
      (Cert.KernelIdeal.Gen.V m c Cert.KernelIdeal.main_v13) (Cert.KernelIdeal.Gen.V m c Cert.KernelIdeal.main_v15)
      (Cert.KernelIdeal.Gen.V m c Cert.KernelIdeal.main_v16) (Cert.KernelIdeal.Gen.V m c Cert.KernelIdeal.main_v17),
    fun c => Cert.KernelValue.attnArr (Cert.KernelIdeal.Gen.V m c Cert.KernelIdeal.main_arg0) (Cert.KernelIdeal.Gen.V m c Cert.KernelIdeal.main_arg1)
      (Cert.KernelIdeal.Gen.V m c Cert.KernelIdeal.main_v18) (Cert.KernelIdeal.Gen.V m c Cert.KernelIdeal.main_v13)
      (Cert.KernelIdeal.Gen.V m c Cert.KernelIdeal.main_v16),
    Cert.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v40_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact (Cert.Bridge.out_bridge m c (hpre c)).symm
  · rw [Cert.ReferenceIdeal.Read.val_main_v30_eq, (hagree c).1, (hagree c).2.1, (hagree c).2.2.1, (hagree c).2.2.2.2.1, (hagree c).2.2.2.2.2.1, (hagree c).2.2.2.2.2.2.1]
    exact (Cert.Bridge.attn_bridge m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
